-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x21 : Shape := ⟨2, ![50000, 21]⟩
abbrev S2x800000 : Shape := ⟨2, ![2, 800000]⟩
abbrev S21x256 : Shape := ⟨2, ![21, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x21 : S_.BroadcastsInDim S50000x21 (![] : Fin 0 → Fin S50000x21.rank)
  reducesTo_S50000x21_S_d0_1 : S50000x21.ReducesTo [0, 1] S_
  h_S_ : 0 < S_.numel
  bcast_S_S21x256 : S_.BroadcastsInDim S21x256 (![] : Fin 0 → Fin S21x256.rank)
  reducesTo_S21x256_S_d0_1 : S21x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S256x128 .f32) (main_arg8 : FVec F S128x128 .f32) (main_arg9 : FVec F S128 .f32) (main_arg10 : FVec F S128x128 .f32) (main_v13 : IVec S_ 1) (main_v16 : IVec S21x256 1) : IVec S_ 1 :=
  let main_c_5 : IVec S_ 1 := constantI S_ 1 1#1
  let main_v17 : IVec S_ 1 := (fun x v => Host.reduce IntOp.andi x v reducesTo_S21x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x21 .f32) (main_arg1 : IVec S2x800000 32) (main_arg2 : FVec F S21x256 .f32) (main_arg3 : FVec F S256 .f32) (main_arg4 : FVec F S21x256 .f32) (main_arg5 : FVec F S256x128 .f32) (main_arg6 : FVec F S128 .f32) (main_arg7 : FVec F S256x128 .f32) (main_arg8 : FVec F S128x128 .f32) (main_arg9 : FVec F S128 .f32) (main_arg10 : FVec F S128x128 .f32) : IVec S_ 1 :=
  let main_v0 : FVec F S50000x21 .f32 := Host.absf main_arg0
  let main_cst : FVec F S_ .f32 := constant S_ .f32 0x7F800000#32
  let main_v1 : FVec F S50000x21 .f32 := broadcastInDim S50000x21 ![] bcast_S_S50000x21 main_cst
  let main_v2 : IVec S50000x21 1 := cmpf .olt main_v0 main_v1
  let main_c : IVec S_ 1 := constantI S_ 1 1#1
  let main_v3 : IVec S_ 1 := (fun x v => Host.reduce IntOp.andi x v reducesTo_S50000x21_S_d0_1 h_S_) main_v2 main_c
  let main_v4 : FVec F S21x256 .f32 := Host.absf main_arg2
  let main_cst_0 : FVec F S_ .f32 := constant S_ .f32 0x7F800000#32
  let main_v5 : FVec F S21x256 .f32 := broadcastInDim S21x256 ![] bcast_S_S21x256 main_cst_0
  let main_v6 : IVec S21x256 1 := cmpf .olt main_v4 main_v5
  let main_c_1 : IVec S_ 1 := constantI S_ 1 1#1
  let main_v7 : IVec S_ 1 := (fun x v => Host.reduce IntOp.andi x v reducesTo_S21x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S21x256 .f32 := Host.absf main_arg4
  let main_cst_4 : FVec F S_ .f32 := constant S_ .f32 0x7F800000#32
  let main_v15 : FVec F S21x256 .f32 := broadcastInDim S21x256 ![] bcast_S_S21x256 main_cst_4
  let main_v16 : IVec S21x256 1 := cmpf .olt main_v14 main_v15
  fn_part1 (F := F) main_arg5 main_arg6 main_arg7 main_arg8 main_arg9 main_arg10 main_v13 main_v16
-- ==== Kernel.lean ====
abbrev S50000x21 : Shape := ⟨2, ![50000, 21]⟩
abbrev S2x800000 : Shape := ⟨2, ![2, 800000]⟩
abbrev S21x256 : Shape := ⟨2, ![21, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x21 : Shape := ⟨2, ![800000, 21]⟩
abbrev S1x256 : Shape := ⟨2, ![1, 256]⟩
abbrev S50000x256 : Shape := ⟨2, ![50000, 256]⟩
abbrev S50000x128 : Shape := ⟨2, ![50000, 128]⟩
abbrev S5000x21 : Shape := ⟨2, ![5000, 21]⟩
abbrev S5000x1 : Shape := ⟨2, ![5000, 1]⟩
abbrev S5000x256 : Shape := ⟨2, ![5000, 256]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 83
  | .vmem => 35
  | .smem => 0
  | _ => 0

abbrev bufTy : (tb : Table) → Fin (tcTables nBuf tb) → BufTy
  | .hbm, ⟨0, _⟩ => ⟨S50000x21, .f32⟩
  | .hbm, ⟨1, _⟩ => ⟨S2x800000, .i32⟩
  | .hbm, ⟨2, _⟩ => ⟨S21x256, .f32⟩
  | .hbm, ⟨3, _⟩ => ⟨S256, .f32⟩
  | .hbm, ⟨4, _⟩ => ⟨S21x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x21, .f32⟩
  | .hbm, ⟨44, _⟩ => ⟨S_, .f32⟩
  | .hbm, ⟨45, _⟩ => ⟨S50000x21, .f32⟩
  | .hbm, ⟨46, _⟩ => ⟨S800000x1, .i32⟩
  | .hbm, ⟨47, _⟩ => ⟨S50000x21, .f32⟩
  | .hbm, ⟨48, _⟩ => ⟨S1x256, .f32⟩
  | .hbm, ⟨49, _⟩ => ⟨S50000x256, .bf16⟩
  | .hbm, ⟨50, _⟩ => ⟨S50000x128, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .bf16⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S50000x128, .bf16⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .bf16⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S5000x21, .f32⟩
  | .local _ .vmem, ⟨1, _⟩ => ⟨S5000x21, .f32⟩
  | .local _ .vmem, ⟨2, _⟩ => ⟨S5000x1, .f32⟩
  | .local _ .vmem, ⟨3, _⟩ => ⟨S5000x1, .f32⟩
  | .local _ .vmem, ⟨4, _⟩ => ⟨S5000x21, .f32⟩
  | .local _ .vmem, ⟨5, _⟩ => ⟨S5000x21, .f32⟩
  | .local _ .vmem, ⟨6, _⟩ => ⟨S21x256, .f32⟩
  | .local _ .vmem, ⟨7, _⟩ => ⟨S1x256, .f32⟩
  | .local _ .vmem, ⟨8, _⟩ => ⟨S21x256, .f32⟩
  | .local _ .vmem, ⟨9, _⟩ => ⟨S256x128, .f32⟩
  | .local _ .vmem, ⟨10, _⟩ => ⟨S5000x256, .bf16⟩
  | .local _ .vmem, ⟨11, _⟩ => ⟨S5000x256, .bf16⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x256, .bf16⟩
  | .local _ .vmem, ⟨19, _⟩ => ⟨S5000x256, .bf16⟩
  | .local _ .vmem, ⟨20, _⟩ => ⟨S1x128, .f32⟩
  | .local _ .vmem, ⟨21, _⟩ => ⟨S256x128, .f32⟩
  | .local _ .vmem, ⟨22, _⟩ => ⟨S5000x128, .bf16⟩
  | .local _ .vmem, ⟨23, _⟩ => ⟨S5000x128, .bf16⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S5000x128, .bf16⟩
  | .local _ .vmem, ⟨29, _⟩ => ⟨S5000x128, .bf16⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | _, _ => ⟨S50000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S21x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S21x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x21 : S_.BroadcastsInDim S50000x21 (![] : Fin 0 → Fin S50000x21.rank)
  shapeCasts_S256_S1x256 : S256.ShapeCasts S1x256
  inb_S5000x21_S5000x21_0_0 : ∀ a, (![0, 0] : Fin 2 → Nat) a + S5000x21.size a ≤ S5000x21.size a
  h_S5000x21 : 0 < S5000x21.numel
  shapeCasts_S5000x21_S5000x21 : S5000x21.ShapeCasts S5000x21
  bitsLt_bf16_f32 : FTy.bits .bf16 < FTy.bits .f32
  inb_S21x256_S21x256_0_0 : ∀ a, (![0, 0] : Fin 2 → Nat) a + S21x256.size a ≤ S21x256.size a
  h_S21x256 : 0 < S21x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x256_S5000x256 : S5000x256.ShapeCasts S5000x256
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  gather_S50000x21_S800000x1_S800000x21_1_0_n_n_0_1_121_wf : GatherDims.WF S50000x21 S800000x1 S800000x21 [1] [0] [] [0] [] 1 ![1, 21]
  scatter_S50000x21_S800000x1_S800000x21_1_0_0_1_wf : ScatterDims.WF S50000x21 S800000x1 S800000x21 [1] [0] [0] 1
  dot_S5000x21_S21x256_S5000x256_1_0_0_1_n_n_wf : DotDims.WF S5000x21 S21x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x21.size a ≤ S50000x21.size a
  hwx0_0 : ∀ i : grid0.Coords, EltTy.bits .f32 = 32 ∨ (Rect.block (s := S50000x21) S5000x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x21.size a ≤ S50000x21.size a
  hwx0_2 : ∀ i : grid0.Coords, EltTy.bits .f32 = 32 ∨ (Rect.block (s := S50000x21) S5000x21.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x256.size a ≤ S21x256.size a
  hwx0_3 : ∀ i : grid0.Coords, EltTy.bits .f32 = 32 ∨ (Rect.block (s := S21x256) S21x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S21x256.size a ≤ S21x256.size a
  hwx0_5 : ∀ i : grid0.Coords, EltTy.bits .f32 = 32 ∨ (Rect.block (s := S21x256) S21x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x256.size a ≤ S50000x256.size a
  hwx0_7 : ∀ i : grid0.Coords, EltTy.bits .bf16 = 32 ∨ (Rect.block (s := S50000x256) S5000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .bf16 = 32 ∨ (Rect.block (s := S50000x128) S5000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .bf16 = 32 ∨ (Rect.block (s := S50000x256) S5000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .bf16 = 32 ∨ (Rect.block (s := S50000x128) S5000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x21_S800000x1_S800000x21_1_0_n_n_0_1_121 : GatherDims S50000x21 S800000x1 S800000x21 where
  offsetDims := [1]
  collapsedSliceDims := [0]
  operandBatchingDims := []
  startIndicesBatchingDims := []
  startIndexMap := [0]
  indexVectorDim := 1
  sliceSizes := ![1, 21]
  wf := gather_S50000x21_S800000x1_S800000x21_1_0_n_n_0_1_121_wf
def scatter_S50000x21_S800000x1_S800000x21_1_0_0_1 : ScatterDims S50000x21 S800000x1 S800000x21 where
  updateWindowDims := [1]
  insertedWindowDims := [0]
  scatterDimsToOperandDims := [0]
  indexVectorDim := 1
  wf := scatter_S50000x21_S800000x1_S800000x21_1_0_0_1_wf
def dot_S5000x21_S21x256_S5000x256_1_0_0_1_n_n : DotDims S5000x21 S21x256 S5000x256 where
  lhsContracting := [1]
  rhsContracting := [0]
  lhsNonContracting := [0]
  rhsNonContracting := [1]
  lhsBatch := []
  rhsBatch := []
  wf := dot_S5000x21_S21x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S5000x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S21x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S21x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S5000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27_0) S5000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x21 : Shape := ⟨2, ![50000, 21]⟩
abbrev S2x800000 : Shape := ⟨2, ![2, 800000]⟩
abbrev S21x256 : Shape := ⟨2, ![21, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x21 : Shape := ⟨2, ![800000, 21]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x21, .f32⟩
  | .hbm, ⟨1, _⟩ => ⟨S2x800000, .i32⟩
  | .hbm, ⟨2, _⟩ => ⟨S21x256, .f32⟩
  | .hbm, ⟨3, _⟩ => ⟨S256, .f32⟩
  | .hbm, ⟨4, _⟩ => ⟨S21x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x21, .f32⟩
  | .hbm, ⟨44, _⟩ => ⟨S_, .f32⟩
  | .hbm, ⟨45, _⟩ => ⟨S50000x21, .f32⟩
  | .hbm, ⟨46, _⟩ => ⟨S800000x1, .i32⟩
  | .hbm, ⟨47, _⟩ => ⟨S50000x21, .f32⟩
  | .hbm, ⟨48, _⟩ => ⟨S50000x21, .f32⟩
  | .hbm, ⟨49, _⟩ => ⟨S50000x21, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S50000x128, .f32⟩
  | _, _ => ⟨S50000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x21 : S_.BroadcastsInDim S50000x21 (![] : Fin 0 → Fin S50000x21.rank)
  bcast_S50000x1_S50000x21_0_1 : S50000x1.BroadcastsInDim S50000x21 (![0, 1] : Fin 2 → Fin S50000x21.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000x21_S800000x1_S800000x21_1_0_n_n_0_1_121_wf : GatherDims.WF S50000x21 S800000x1 S800000x21 [1] [0] [] [0] [] 1 ![1, 21]
  scatter_S50000x21_S800000x1_S800000x21_1_0_0_1_wf : ScatterDims.WF S50000x21 S800000x1 S800000x21 [1] [0] [0] 1
  dot_S50000x21_S21x256_S50000x256_1_0_0_1_n_n_wf : DotDims.WF S50000x21 S21x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x21_S800000x1_S800000x21_1_0_n_n_0_1_121 : GatherDims S50000x21 S800000x1 S800000x21 where
  offsetDims := [1]
  collapsedSliceDims := [0]
  operandBatchingDims := []
  startIndicesBatchingDims := []
  startIndexMap := [0]
  indexVectorDim := 1
  sliceSizes := ![1, 21]
  wf := gather_S50000x21_S800000x1_S800000x21_1_0_n_n_0_1_121_wf
def scatter_S50000x21_S800000x1_S800000x21_1_0_0_1 : ScatterDims S50000x21 S800000x1 S800000x21 where
  updateWindowDims := [1]
  insertedWindowDims := [0]
  scatterDimsToOperandDims := [0]
  indexVectorDim := 1
  wf := scatter_S50000x21_S800000x1_S800000x21_1_0_0_1_wf
def dot_S50000x21_S21x256_S50000x256_1_0_0_1_n_n : DotDims S50000x21 S21x256 S50000x256 where
  lhsContracting := [1]
  rhsContracting := [0]
  lhsNonContracting := [0]
  rhsNonContracting := [1]
  lhsBatch := []
  rhsBatch := []
  wf := dot_S50000x21_S21x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageSpec.lean ====
/-
  A three-layer mean-aggregation graph network on the extended reals, entry by entry.

  Nodes are `Fin N`, edges `Fin E`.  The graph enters only through two things: for each node `n` the finite set
  `L n` of edges that land on it, and for each edge `e` the node `s e` it comes from.  `d n` is the node's inverse
  in-degree (zero for an isolated node); it is a parameter here.

  One layer maps node features `h : N × K` to `N × C`:
      aggregate      (agg h)(n, k)  = Σ_{e ∈ L n} h(s e, k)
      reference form ((Σ_k (agg h)(n,k) · d n · Wl(k,c)) + bl c) + Σ_k h(n,k) · Wr(k,c)
  The other two forms compute the same number when every entry is a real:
      form A  scales AFTER the product:        ((Σ_k (agg h)(n,k) · Wl(k,c)) · d n + bl c) + Σ_k h(n,k) · Wr(k,c)
      form B  projects BEFORE aggregating:     ((agg (h · Wl))(n,c) · d n + bl c) + Σ_k h(n,k) · Wr(k,c)
  The network is three layers, a maximum with zero after the first two.
-/
import Idealize.ShloMosaic.PureOps.Ideal
import Idealize.ShloMosaic.Lib.ValueIdx

noncomputable section

namespace Cert.Sage

open Idealize.ShloMosaic Idealize.ShloMosaic.ValueIdx

variable {N E K C : ℕ}

/-- The edges that land on node `n`: those whose destination word, read signed, is `n`. -/
def landing (idxD : IVec (⟨2, ![E, 1]⟩ : Shape) 32) (n : Fin N) : Finset (Fin E) :=
  Finset.univ.filter fun e : Fin E => (idxD (ix2 e 0)).toInt = (n.val : Int)

/-- The node edge `e` comes from: its source word read signed and clamped into `[0, N − 1]`. -/
def srcOf (hN : 0 < N) (idxS : IVec (⟨2, ![E, 1]⟩ : Shape) 32) (e : Fin E) : Fin N :=
  ⟨min (idxS (ix2 e 0)).toInt.toNat (N - 1), by omega⟩

/-- A matrix as a function of its two coordinates. -/
def cur2 {α : Type} {a b : ℕ} (x : (⟨2, ![a, b]⟩ : Shape).Idx → α) : Fin a → Fin b → α := fun p q => x (ix2 p q)

/-- A vector as a function of its coordinate. -/
def cur1 {α : Type} {a : ℕ} (x : (⟨1, ![a]⟩ : Shape).Idx → α) : Fin a → α := fun p => x (ix1 p)

/-- Neighbour aggregation: the sum of the features of the source nodes of the edges landing on `n`. -/
def agg (L : Fin N → Finset (Fin E)) (s : Fin E → Fin N) (h : Fin N → Fin K → EReal) (n : Fin N) (k : Fin K) : EReal :=
  ∑ e ∈ L n, h (s e) k

/-- A matrix product at an entry. -/
def dot (h : Fin N → Fin K → EReal) (W : Fin K → Fin C → EReal) (n : Fin N) (c : Fin C) : EReal :=
  ∑ k, h n k * W k c

/-- One layer, the reference's form: scale the aggregate by the inverse degree, then multiply. -/
def layerRef (L : Fin N → Finset (Fin E)) (s : Fin E → Fin N) (d : Fin N → EReal) (h : Fin N → Fin K → EReal)
    (Wl : Fin K → Fin C → EReal) (bl : Fin C → EReal) (Wr : Fin K → Fin C → EReal) (n : Fin N) (c : Fin C) : EReal :=
  (dot (fun n k => agg L s h n k * d n) Wl n c + bl c) + dot h Wr n c

/-- One layer, form A: multiply the aggregate, then scale by the inverse degree. -/
def layerA (L : Fin N → Finset (Fin E)) (s : Fin E → Fin N) (d : Fin N → EReal) (h : Fin N → Fin K → EReal)
    (Wl : Fin K → Fin C → EReal) (bl : Fin C → EReal) (Wr : Fin K → Fin C → EReal) (n : Fin N) (c : Fin C) : EReal :=
  (dot (agg L s h) Wl n c * d n + bl c) + dot h Wr n c

/-- One layer, form B: the features were multiplied by `Wl` before aggregation (`p = h · Wl`). -/
def layerB (L : Fin N → Finset (Fin E)) (s : Fin E → Fin N) (d : Fin N → EReal) (p : Fin N → Fin C → EReal)
    (h : Fin N → Fin K → EReal) (bl : Fin C → EReal) (Wr : Fin K → Fin C → EReal) (n : Fin N) (c : Fin C) : EReal :=
  (agg L s p n c * d n + bl c) + dot h Wr n c

/-- Maximum with zero, entry by entry. -/
def relu (f : Fin N → Fin C → EReal) (n : Fin N) (c : Fin C) : EReal := max (f n c) 0

variable {K1 K2 K3 : ℕ}

/-- The reference network: three layers in the reference's form. -/
def netRef (L : Fin N → Finset (Fin E)) (s : Fin E → Fin N) (d : Fin N → EReal) (x : Fin N → Fin K → EReal)
    (Wl1 : Fin K → Fin K1 → EReal) (bl1 : Fin K1 → EReal) (Wr1 : Fin K → Fin K1 → EReal)
    (Wl2 : Fin K1 → Fin K2 → EReal) (bl2 : Fin K2 → EReal) (Wr2 : Fin K1 → Fin K2 → EReal)
    (Wl3 : Fin K2 → Fin K3 → EReal) (bl3 : Fin K3 → EReal) (Wr3 : Fin K2 → Fin K3 → EReal) : Fin N → Fin K3 → EReal :=
  layerRef L s d (relu (layerRef L s d (relu (layerRef L s d x Wl1 bl1 Wr1)) Wl2 bl2 Wr2)) Wl3 bl3 Wr3

/-- The first hidden features in form A. -/
def hid1 (L : Fin N → Finset (Fin E)) (s : Fin E → Fin N) (d : Fin N → EReal) (x : Fin N → Fin K → EReal)
    (Wl1 : Fin K → Fin K1 → EReal) (bl1 : Fin K1 → EReal) (Wr1 : Fin K → Fin K1 → EReal) : Fin N → Fin K1 → EReal :=
  relu (layerA L s d x Wl1 bl1 Wr1)

/-- The second hidden features in form B, from the first ones and their projection. -/
def hid2 (L : Fin N → Finset (Fin E)) (s : Fin E → Fin N) (d : Fin N → EReal) (h1 : Fin N → Fin K1 → EReal)
    (Wl2 : Fin K1 → Fin K2 → EReal) (bl2 : Fin K2 → EReal) (Wr2 : Fin K1 → Fin K2 → EReal) : Fin N → Fin K2 → EReal :=
  relu (layerB L s d (dot h1 Wl2) h1 bl2 Wr2)

/-- The network as the kernel arranges it: form A, form B on the projected features, form A. -/
def netKer (L : Fin N → Finset (Fin E)) (s : Fin E → Fin N) (d : Fin N → EReal) (x : Fin N → Fin K → EReal)
    (Wl1 : Fin K → Fin K1 → EReal) (bl1 : Fin K1 → EReal) (Wr1 : Fin K → Fin K1 → EReal)
    (Wl2 : Fin K1 → Fin K2 → EReal) (bl2 : Fin K2 → EReal) (Wr2 : Fin K1 → Fin K2 → EReal)
    (Wl3 : Fin K2 → Fin K3 → EReal) (bl3 : Fin K3 → EReal) (Wr3 : Fin K2 → Fin K3 → EReal) : Fin N → Fin K3 → EReal :=
  layerA L s d (hid2 L s d (hid1 L s d x Wl1 bl1 Wr1) Wl2 bl2 Wr2) Wl3 bl3 Wr3

end Cert.Sage

end
-- ==== Proof.SageLaw.lean ====
/-
  The two arrangements of the network agree where every number is a real.

  On the extended reals a product does not distribute over a sum in general (+∞ and −∞ may meet), so the two
  rearrangements the layers differ by are proved for REAL entries, by carrying the sums into ℝ:

    scale after the product    Σ_k (A(n,k) · d n) · W(k,c)  =  (Σ_k A(n,k) · W(k,c)) · d n
    project before aggregating Σ_{e ∈ L n} Σ_k h(s e,k) · W(k,c)  =  Σ_k (Σ_{e ∈ L n} h(s e,k)) · W(k,c)

  Sums, products and maxima with zero of reals are reals, so each layer's output is again real and the argument
  goes through the three layers.
-/
import proofs.«138262_j68693706932385_2_alg».proof.Proof.SageSpec

noncomputable section

namespace Cert.Sage

open Idealize.ShloMosaic

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  exact ⟨max a 0, by rw [EReal.coe_strictMono.monotone.map_max, EReal.coe_zero]⟩

theorem IsReal.sum {ι : Type*} (s : Finset ι) (f : ι → EReal) (h : ∀ i ∈ s, IsReal (f i)) : IsReal (∑ i ∈ s, f i) :=
  Finset.sum_induction f IsReal (fun _ _ => IsReal.add) IsReal.zero h

/-- A finite sum of reals, taken in the extended reals, is the real sum. -/
theorem coe_sum {ι : Type*} (s : Finset ι) (g : ι → ℝ) : ∑ i ∈ s, ((g i : ℝ) : EReal) = ((∑ i ∈ s, g i : ℝ) : EReal) := by
  classical
  refine Finset.induction_on s (by simp) fun a s ha ih => ?_
  rw [Finset.sum_insert ha, Finset.sum_insert ha, EReal.coe_add, ih]

variable {N E K C : ℕ}

/-- Scaling a row by a real before the product is scaling the product's entry. -/
theorem dot_scale (A : Fin N → Fin K → EReal) (W : Fin K → Fin C → EReal) (d : Fin N → EReal)
    (hA : ∀ n k, IsReal (A n k)) (hW : ∀ k c, IsReal (W k c)) (hd : ∀ n, IsReal (d n)) (n : Fin N) (c : Fin C) :
    dot (fun n k => A n k * d n) W n c = dot A W n c * d n := by
  choose a ha using hA
  choose w hw using hW
  choose r hr using hd
  unfold dot
  simp only [ha, hw, hr, ← EReal.coe_mul, coe_sum]
  refine congrArg _ ?_
  rw [Finset.sum_mul]
  exact Finset.sum_congr rfl fun k _ => by ring

/-- Aggregating projected features is projecting the aggregated features. -/
theorem agg_dot (L : Fin N → Finset (Fin E)) (s : Fin E → Fin N) (h : Fin N → Fin K → EReal) (W : Fin K → Fin C → EReal)
    (hh : ∀ n k, IsReal (h n k)) (hW : ∀ k c, IsReal (W k c)) (n : Fin N) (c : Fin C) :
    agg L s (dot h W) n c = dot (agg L s h) W n c := by
  choose a ha using hh
  choose w hw using hW
  unfold agg dot
  simp only [ha, hw, ← EReal.coe_mul, coe_sum]
  refine congrArg _ ?_
  rw [Finset.sum_comm]
  exact Finset.sum_congr rfl fun k _ => (Finset.sum_mul _ _ _).symm

theorem agg_real (L : Fin N → Finset (Fin E)) (s : Fin E → Fin N) (h : Fin N → Fin K → EReal)
    (hh : ∀ n k, IsReal (h n k)) (n : Fin N) (k : Fin K) : IsReal (agg L s h n k) :=
  IsReal.sum _ _ fun e _ => hh (s e) k

theorem dot_real (h : Fin N → Fin K → EReal) (W : Fin K → Fin C → EReal)
    (hh : ∀ n k, IsReal (h n k)) (hW : ∀ k c, IsReal (W k c)) (n : Fin N) (c : Fin C) : IsReal (dot h W n c) :=
  IsReal.sum _ _ fun k _ => (hh n k).mul (hW k c)

section Layer

variable (L : Fin N → Finset (Fin E)) (s : Fin E → Fin N) (d : Fin N → EReal) (h : Fin N → Fin K → EReal)
  (Wl : Fin K → Fin C → EReal) (bl : Fin C → EReal) (Wr : Fin K → Fin C → EReal)
  (hd : ∀ n, IsReal (d n)) (hh : ∀ n k, IsReal (h n k)) (hWl : ∀ k c, IsReal (Wl k c)) (hbl : ∀ c, IsReal (bl c))
  (hWr : ∀ k c, IsReal (Wr k c))

include hd hh hWl in
/-- Form A is the reference's form. -/
theorem layerA_eq : layerA L s d h Wl bl Wr = layerRef L s d h Wl bl Wr := by
  funext n c
  unfold layerA layerRef
  rw [dot_scale (agg L s h) Wl d (agg_real L s h hh) hWl hd n c]

include hd hh hWl in
/-- Form B, fed the projected features, is the reference's form. -/
theorem layerB_eq : layerB L s d (dot h Wl) h bl Wr = layerRef L s d h Wl bl Wr := by
  funext n c
  unfold layerB layerRef
  rw [agg_dot L s h Wl hh hWl n c, dot_scale (agg L s h) Wl d (agg_real L s h hh) hWl hd n c]

include hd hh hWl hbl hWr in
/-- A layer of reals is real. -/
theorem layerRef_real (n : Fin N) (c : Fin C) : IsReal (layerRef L s d h Wl bl Wr n c) := by
  unfold layerRef
  exact ((dot_real _ Wl (fun n k => (agg_real L s h hh n k).mul (hd n)) hWl n c).add (hbl c)).add (dot_real h Wr hh hWr n c)

end Layer

theorem relu_real (f : Fin N → Fin C → EReal) (hf : ∀ n c, IsReal (f n c)) (n : Fin N) (c : Fin C) : IsReal (relu f n c) :=
  (hf n c).max_zero

variable {K1 K2 K3 : ℕ}

/-- THE TWO NETWORKS AGREE on real inputs: the kernel's arrangement of the three layers computes the reference's. -/
theorem netKer_eq_netRef (L : Fin N → Finset (Fin E)) (s : Fin E → Fin N) (d : Fin N → EReal) (x : Fin N → Fin K → EReal)
    (Wl1 : Fin K → Fin K1 → EReal) (bl1 : Fin K1 → EReal) (Wr1 : Fin K → Fin K1 → EReal)
    (Wl2 : Fin K1 → Fin K2 → EReal) (bl2 : Fin K2 → EReal) (Wr2 : Fin K1 → Fin K2 → EReal)
    (Wl3 : Fin K2 → Fin K3 → EReal) (bl3 : Fin K3 → EReal) (Wr3 : Fin K2 → Fin K3 → EReal)
    (hd : ∀ n, IsReal (d n)) (hx : ∀ n k, IsReal (x n k))
    (hWl1 : ∀ k c, IsReal (Wl1 k c)) (hbl1 : ∀ c, IsReal (bl1 c)) (hWr1 : ∀ k c, IsReal (Wr1 k c))
    (hWl2 : ∀ k c, IsReal (Wl2 k c)) (hbl2 : ∀ c, IsReal (bl2 c)) (hWr2 : ∀ k c, IsReal (Wr2 k c))
    (hWl3 : ∀ k c, IsReal (Wl3 k c)) :
    netKer L s d x Wl1 bl1 Wr1 Wl2 bl2 Wr2 Wl3 bl3 Wr3 = netRef L s d x Wl1 bl1 Wr1 Wl2 bl2 Wr2 Wl3 bl3 Wr3 := by
  have e1 : hid1 L s d x Wl1 bl1 Wr1 = relu (layerRef L s d x Wl1 bl1 Wr1) := by
    unfold hid1; rw [layerA_eq L s d x Wl1 bl1 Wr1 hd hx hWl1]
  have r1 : ∀ n k, IsReal (relu (layerRef L s d x Wl1 bl1 Wr1) n k) :=
    relu_real _ (layerRef_real L s d x Wl1 bl1 Wr1 hd hx hWl1 hbl1 hWr1)
  have e2 : hid2 L s d (relu (layerRef L s d x Wl1 bl1 Wr1)) Wl2 bl2 Wr2
      = relu (layerRef L s d (relu (layerRef L s d x Wl1 bl1 Wr1)) Wl2 bl2 Wr2) := by
    unfold hid2; rw [layerB_eq L s d _ Wl2 bl2 Wr2 hd r1 hWl2]
  have r2 : ∀ n k, IsReal (relu (layerRef L s d (relu (layerRef L s d x Wl1 bl1 Wr1)) Wl2 bl2 Wr2) n k) :=
    relu_real _ (layerRef_real L s d _ Wl2 bl2 Wr2 hd r1 hWl2 hbl2 hWr2)
  unfold netKer netRef
  rw [e1, e2, layerA_eq L s d _ Wl3 bl3 Wr3 hd r2 hWl3]

end Cert.Sage

end
-- ==== Proof.SageFinite.lean ====
/-
  Under the precondition every float argument is a real number at every index.

  The precondition is a conjunction, over the ten float arguments, of "every entry's absolute value is below +∞".
  An extended real whose absolute value is below +∞ is neither +∞ nor −∞, so it is a real.
-/
import proofs.«138262_j68693706932385_2_alg».proof.Defs
import proofs.«138262_j68693706932385_2_alg».proof.Proof.Gen.Pre_finite_inputs
import proofs.«138262_j68693706932385_2_alg».proof.Proof.SageLaw
import Idealize.ShloMosaic.Lib.ReduceAll

noncomputable section

open Idealize.ShloMosaic Idealize.SL.Sem

namespace Cert.SageFin
open Cert.Sage

/-- The scalar shape has one index. -/
instance : Subsingleton Cert.Pre_finite_inputs.S_.Idx := ⟨fun a b => funext fun d => d.elim0⟩

/-- An extended real whose absolute value max(x, −x) is below +∞ is a real number. -/
theorem real_of_abs_lt_top (x : EReal) (h : max x (-x) < ⊤) : IsReal x := by
  induction x using EReal.rec with
  | bot => simp at h
  | coe r => exact ⟨r, rfl⟩
  | top => simp at h

/-- The word 0x7F800000 read as a binary32 number is +∞. -/
theorem inf_word : Ideal.ofBits .f32 0x7F800000#32 = (⊤ : EReal) := by simp [Ideal.ofBits, Ideal.ieee]

/-- One conjunct of the precondition: if "every |x j| is below the +∞ word" reduces, by `and`, to 1, every entry of
    the array is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) (j : s.Idx) : IsReal (x j) := by
  have hj := Host.reduce_andi_all _ _ hr hu ValueIdx.ix0 e j
  have hc : broadcastInDim s ![] hb (constant (F := Ideal) Cert.Pre_finite_inputs.S_ .f32 0x7F800000#32) j
      = Ideal.ofBits .f32 0x7F800000#32 :=
    rfl
  change Ideal.cmp .olt (max (x j) (-(x j))) (broadcastInDim s ![] hb (constant (F := Ideal) Cert.Pre_finite_inputs.S_ .f32 0x7F800000#32) j) = 1#1 at hj
  rw [hc, inf_word] at hj
  refine real_of_abs_lt_top (x j) ?_
  by_contra hn
  have : Ideal.cmp .olt (max (x j) (-(x j))) ⊤ = 0#1 := by
    show BitVec.ofBool (decide (max (x j) (-(x j)) < ⊤)) = 0#1
    rw [decide_eq_false hn]; rfl
  rw [this] at hj
  exact absurd hj (by decide)

/-- Under the precondition every float argument is a real at every index. -/
theorem inputs_real [hPre_finite_inputs : Cert.Pre_finite_inputs.Facts]
    (m : (ℓ : Loc Cert.KernelIdeal.nD Cert.KernelIdeal.τ Cert.KernelIdeal.sig) → Buf (Elt Ideal) ℓ) (hpre : Cert.Pre_KernelIdeal m)
    (c : Dev Cert.KernelIdeal.nD) :
    (∀ j, IsReal (m ((c.tc : Thread Cert.KernelIdeal.nD Cert.KernelIdeal.τ).loc Cert.KernelIdeal.main_arg0) j))
    ∧ (∀ j, IsReal (m ((c.tc : Thread Cert.KernelIdeal.nD Cert.KernelIdeal.τ).loc Cert.KernelIdeal.main_arg2) j))
    ∧ (∀ j, IsReal (m ((c.tc : Thread Cert.KernelIdeal.nD Cert.KernelIdeal.τ).loc Cert.KernelIdeal.main_arg3) j))
    ∧ (∀ j, IsReal (m ((c.tc : Thread Cert.KernelIdeal.nD Cert.KernelIdeal.τ).loc Cert.KernelIdeal.main_arg4) j))
    ∧ (∀ j, IsReal (m ((c.tc : Thread Cert.KernelIdeal.nD Cert.KernelIdeal.τ).loc Cert.KernelIdeal.main_arg5) j))
    ∧ (∀ j, IsReal (m ((c.tc : Thread Cert.KernelIdeal.nD Cert.KernelIdeal.τ).loc Cert.KernelIdeal.main_arg6) j))
    ∧ (∀ j, IsReal (m ((c.tc : Thread Cert.KernelIdeal.nD Cert.KernelIdeal.τ).loc Cert.KernelIdeal.main_arg7) j))
    ∧ (∀ j, IsReal (m ((c.tc : Thread Cert.KernelIdeal.nD Cert.KernelIdeal.τ).loc Cert.KernelIdeal.main_arg8) j))
    ∧ (∀ j, IsReal (m ((c.tc : Thread Cert.KernelIdeal.nD Cert.KernelIdeal.τ).loc Cert.KernelIdeal.main_arg9) j))
    ∧ (∀ j, IsReal (m ((c.tc : Thread Cert.KernelIdeal.nD Cert.KernelIdeal.τ).loc Cert.KernelIdeal.main_arg10) j)) := by
  have h := congrFun (hpre c) ValueIdx.ix0
  dsimp only [Cert.Pre_finite_inputs.fn, Cert.Pre_finite_inputs.fn_part1, Cert.Pre_finite_inputs.fn_part2] at h
  change IntOp.andi _ _ = 1#1 at h
  obtain ⟨h, h10⟩ := IntOp.andi_eq_one.mp h
  change IntOp.andi _ _ = 1#1 at h
  obtain ⟨h, h9⟩ := IntOp.andi_eq_one.mp h
  change IntOp.andi _ _ = 1#1 at h
  obtain ⟨h, h8⟩ := IntOp.andi_eq_one.mp h
  change IntOp.andi _ _ = 1#1 at h
  obtain ⟨h, h7⟩ := IntOp.andi_eq_one.mp h
  change IntOp.andi _ _ = 1#1 at h
  obtain ⟨h, h6⟩ := IntOp.andi_eq_one.mp h
  change IntOp.andi _ _ = 1#1 at h
  obtain ⟨h, h5⟩ := IntOp.andi_eq_one.mp h
  change IntOp.andi _ _ = 1#1 at h
  obtain ⟨h, h4⟩ := IntOp.andi_eq_one.mp h
  change IntOp.andi _ _ = 1#1 at h
  obtain ⟨h, h3⟩ := IntOp.andi_eq_one.mp h
  change IntOp.andi _ _ = 1#1 at h
  obtain ⟨h0, h2⟩ := IntOp.andi_eq_one.mp h
  exact ⟨all_real _ _ _ _ h0, all_real _ _ _ _ h2, all_real _ _ _ _ h3, all_real _ _ _ _ h4, all_real _ _ _ _ h5,
    all_real _ _ _ _ h6, all_real _ _ _ _ h7, all_real _ _ _ _ h8, all_real _ _ _ _ h9, all_real _ _ _ _ h10⟩

end Cert.SageFin
end
-- ==== Proof.SageKerRun.lean ====
/-
  The kernel program's run with its result named.

  @main is eight segments: three stretches of host operations, then each of the three kernel regions followed (for
  the first two) by a stretch of host operations.  The buffer contents at the segment boundaries form a chain
  W0 … W8 from the launch memory; every weakly fair execution terminates, without a fault, in a state whose
  unscoped buffers hold W8.  So the result buffer ends at W8's contents there, and the arguments end as launched.
  The launch is the several-region launch theorem applied to the segments; only the post differs from the frame
  statement, which keeps the arguments alone.
-/
import proofs.«138262_j68693706932385_2_alg».proof.Proof.Gen.KernelIdeal.Frame

set_option maxRecDepth 16384

noncomputable section

namespace Cert.SageKer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.SageKer

end
-- ==== Proof.SageKerHost.lean ====
/-
  The kernel program's host operations between its regions, read back.

  Each stretch of host operations is read over an ARBITRARY valuation `W` of the buffers it starts from: what the
  stretch leaves in a buffer is a pure term of `W` at the buffers the stretch reads.  The kernel program's host
  operations are, line for line, the reference program's own first lines (the slices of the edge list, the
  degree count and its guarded reciprocal, the source index with negative entries wrapped, the gather and the
  segment sum), so their values are stated as the reference's stages of the same arguments.
-/
import proofs.«138262_j68693706932385_2_alg».proof.Proof.Gen.KernelIdeal.Frame
import proofs.«138262_j68693706932385_2_alg».proof.Proof.RefReadP
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.SageKer

open Cert.KernelIdeal Cert.KernelIdeal.Gen
open Cert.ReferenceIdeal.ReadP (val_main_v1 val_main_v3 val_main_v9 val_main_v13 val_main_cst_4 val_main_v14 val_main_v15
  val_main_v21 val_main_v24 val_main_v25)

variable (W : Valuation τ sig (Elt Ideal))

/-! ## The first stretch: the edge list's two rows, the degree mask and the reciprocal -/

set_option maxHeartbeats 4000000 in
theorem host0_v1 : StableHlo.after (hostOps0 (F := Ideal)) W (Proc.devRef .tc main_v1)
    = val_main_v1 (F := Ideal) (W (Proc.devRef .tc main_arg1)) := by
  after_results_simp
  rfl

set_option maxHeartbeats 4000000 in
theorem host0_v3 : StableHlo.after (hostOps0 (F := Ideal)) W (Proc.devRef .tc main_v3)
    = val_main_v3 (F := Ideal) (W (Proc.devRef .tc main_arg1)) := by
  after_results_simp
  rfl

set_option maxHeartbeats 4000000 in
theorem host0_v9 : StableHlo.after (hostOps0 (F := Ideal)) W (Proc.devRef .tc main_v9)
    = val_main_v9 (F := Ideal) (W (Proc.devRef .tc main_arg1)) := by
  after_results_simp
  rfl

set_option maxHeartbeats 4000000 in
theorem host0_v13 : StableHlo.after (hostOps0 (F := Ideal)) W (Proc.devRef .tc main_v13)
    = val_main_v13 (F := Ideal) (W (Proc.devRef .tc main_arg1)) := by
  after_results_simp
  rfl

set_option maxHeartbeats 4000000 in
theorem host0_cst4 : StableHlo.after (hostOps0 (F := Ideal)) W (Proc.devRef .tc main_cst_4)
    = val_main_cst_4 (F := Ideal) := by
  after_results_simp
  rfl

/-! ## The outlined select, and the second prefix stretch -/

set_option maxHeartbeats 4000000 in
theorem host01_v14 : StableHlo.after (hostOps0_1 (F := Ideal)) W (Proc.devRef .tc main_v14)
    = select (s := S50000) (W (Proc.devRef .tc main_v9)) (W (Proc.devRef .tc main_v13))
        (broadcastInDim S50000 ![] bcast_S_S50000 (W (Proc.devRef .tc main_cst_4))) := by
  after_results_simp
  rfl

set_option maxHeartbeats 4000000 in
theorem host02_v15 : StableHlo.after (hostOps0_2 (F := Ideal)) W (Proc.devRef .tc main_v15)
    = broadcastInDim S50000x1 ![0] bcast_S50000_S50000x1_0 (W (Proc.devRef .tc main_v14)) := by
  after_results_simp

set_option maxHeartbeats 4000000 in
theorem host02_v26 : StableHlo.after (hostOps0_2 (F := Ideal)) W (Proc.devRef .tc main_v26)
    = shapeCast S1x256 (W (Proc.devRef .tc main_arg3)) shapeCasts_S256_S1x256 := by
  after_results_simp
  rfl

/-- The inverse-degree column from the mask, the reciprocal and the zero word is the reference's stage. -/
theorem invdeg_stage (x1 : (⟨S2x800000, .i32⟩ : BufTy).Contents (Elt Ideal)) :
    broadcastInDim S50000x1 ![0] bcast_S50000_S50000x1_0
      (select (s := S50000) (val_main_v9 (F := Ideal) x1) (val_main_v13 (F := Ideal) x1)
        (broadcastInDim S50000 ![] bcast_S_S50000 (val_main_cst_4 (F := Ideal))))
      = val_main_v15 (F := Ideal) x1 := rfl

/-! ## The stretches before regions 1 and 2: aggregate the previous region's 128-wide output -/

/-- The host's aggregation of a 128-wide array, from the edge list's two rows `v1` (sources) and `v3` (destinations):
    wrap a negative source, gather the source rows, widen (the identity on the extended reals), and sum into zeros
    by destination. -/
def aggK (v1 v3 : IVec S800000 32) (h : FVec Ideal S50000x128 .bf16) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 v3)
    (extf .f32
      (Host.gather gather_S50000x128_S800000x1_S800000x128_1_0_n_n_0_1_1128 h
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1)))
      bitsLt_bf16_f32)

set_option maxHeartbeats 4000000 in
theorem host1_v38 : StableHlo.after (hostOps1 (F := Ideal)) W (Proc.devRef .tc main_v38)
    = aggK (W (Proc.devRef .tc main_v1)) (W (Proc.devRef .tc main_v3)) (W (Proc.devRef .tc main_v27_1)) := by
  after_results_simp
  rfl

set_option maxHeartbeats 4000000 in
theorem host1_v39 : StableHlo.after (hostOps1 (F := Ideal)) W (Proc.devRef .tc main_v39)
    = shapeCast S1x128 (W (Proc.devRef .tc main_arg6)) shapeCasts_S128_S1x128 := by
  after_results_simp
  rfl

set_option maxHeartbeats 4000000 in
theorem host2_v51 : StableHlo.after (hostOps2 (F := Ideal)) W (Proc.devRef .tc main_v51)
    = aggK (W (Proc.devRef .tc main_v1)) (W (Proc.devRef .tc main_v3)) (W (Proc.devRef .tc main_v40)) := by
  after_results_simp
  rfl

set_option maxHeartbeats 4000000 in
theorem host2_v52 : StableHlo.after (hostOps2 (F := Ideal)) W (Proc.devRef .tc main_v52)
    = shapeCast S1x128 (W (Proc.devRef .tc main_arg9)) shapeCasts_S128_S1x128 := by
  after_results_simp
  rfl

/-! ### Buffers a stretch leaves alone -/

set_option maxHeartbeats 4000000 in
theorem host1_keep (b : Ref sig .tc)
    (hb : b = main_v1 ∨ b = main_v3 ∨ b = main_v15 ∨ b = main_v27_0 ∨ b = main_arg7 ∨ b = main_arg8 ∨ b = main_arg9 ∨ b = main_arg10) :
    StableHlo.after (hostOps1 (F := Ideal)) W (Proc.devRef .tc b) = W (Proc.devRef .tc b) := by
  rcases hb with rfl | rfl | rfl | rfl | rfl | rfl | rfl | rfl <;> after_results_simp

set_option maxHeartbeats 4000000 in
theorem host2_keep (b : Ref sig .tc)
    (hb : b = main_v15 ∨ b = main_v40 ∨ b = main_arg8 ∨ b = main_arg10) :
    StableHlo.after (hostOps2 (F := Ideal)) W (Proc.devRef .tc b) = W (Proc.devRef .tc b) := by
  rcases hb with rfl | rfl | rfl | rfl <;> after_results_simp

set_option maxHeartbeats 4000000 in
theorem host0_keep (b : Ref sig .tc)
    (hb : b = main_arg0 ∨ b = main_arg2 ∨ b = main_arg3 ∨ b = main_arg4 ∨ b = main_arg5 ∨ b = main_arg6 ∨ b = main_arg7
      ∨ b = main_arg8 ∨ b = main_arg9 ∨ b = main_arg10) :
    StableHlo.after (hostOps0_2 (F := Ideal)) (StableHlo.after (hostOps0_1 (F := Ideal)) (StableHlo.after (hostOps0 (F := Ideal)) W))
      (Proc.devRef .tc b) = W (Proc.devRef .tc b) := by
  rcases hb with rfl | rfl | rfl | rfl | rfl | rfl | rfl | rfl | rfl | rfl <;> after_results_simp

end Cert.SageKer

end
-- ==== Proof.SageKerEntry.lean ====
/-
  What each kernel region finds in the buffers it reads.

  The buffer contents at the boundaries of the program's segments form a chain: three stretches of host operations
  lead to region 0, one stretch to region 1, one to region 2.  A region changes only its own output arrays; a
  stretch changes only the buffers it writes.  Walking each buffer a region reads back along the chain gives it
  as a function of the launch arguments and of the earlier regions' output arrays:
    region 0 reads the aggregated input features, the inverse-degree column, the input features, and weights and
      the bias as a row;
    region 1 reads the aggregate of region 0's second output, the same column, region 0's first output;
    region 2 reads the aggregate of region 1's output, the same column, region 1's output.
  The edge list's two rows, computed once by the first stretch, are what every later aggregation indexes by.
-/
import proofs.«138262_j68693706932385_2_alg».proof.Proof.SageKerHost

noncomputable section

open Idealize.ShloMosaic Idealize.ShloMosaic.TcCoe Idealize.SL.Sem Idealize.ShloMosaic.StableHlo

namespace Cert.SageKer

open Cert.KernelIdeal Cert.KernelIdeal.Gen
open Cert.ReferenceIdeal.ReadP (val_main_v1 val_main_v3 val_main_v9 val_main_v13 val_main_cst_4 val_main_v14 val_main_v15
  val_main_v21 val_main_v24 val_main_v25)

variable (m : (ℓ : Loc nD τ sig) → Buf (Elt Ideal) ℓ) (ρ : Dev nD → PrngReg) (c : Dev nD)

/-! ## Up to region 0 -/

/-- An argument array is untouched by the three first stretches. -/
theorem w3_arg (b : Ref sig .tc)
    (hb : b = main_arg0 ∨ b = main_arg2 ∨ b = main_arg3 ∨ b = main_arg4 ∨ b = main_arg5 ∨ b = main_arg6 ∨ b = main_arg7
      ∨ b = main_arg8 ∨ b = main_arg9 ∨ b = main_arg10) :
    W3 m ρ c (Proc.devRef .tc b) = m ((c : Thread nD τ).loc b) :=
  (host0_keep (W0 m ρ c) b hb).trans rfl

set_option maxHeartbeats 8000000 in
theorem w3_v1 : W3 m ρ c (Proc.devRef .tc main_v1) = val_main_v1 (F := Ideal) (m ((c : Thread nD τ).loc main_arg1)) := by
  show StableHlo.after hostOps0_2 (StableHlo.after hostOps0_1 (StableHlo.after hostOps0 (W0 m ρ c))) (Proc.devRef .tc main_v1) = _
  after_results_simp
  rfl

set_option maxHeartbeats 8000000 in
theorem w3_v3 : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 8000000 in
/-- Region 0's first window: the input features gathered by source and summed by destination. -/
theorem entry0_v25 : V3 m ρ c main_v25
    = val_main_v25 (F := Ideal) (m ((c : Thread nD τ).loc main_arg0)) (m ((c : Thread nD τ).loc main_arg1)) := by
  show StableHlo.after hostOps0_2 (StableHlo.after hostOps0_1 (StableHlo.after hostOps0 (W0 m ρ c))) (Proc.devRef .tc main_v25) = _
  after_results_simp
  rfl

/-- The inverse-degree column. -/
theorem entry0_v15 : V3 m ρ c main_v15 = val_main_v15 (F := Ideal) (m ((c : Thread nD τ).loc main_arg1)) := by
  show StableHlo.after hostOps0_2 (W2 m ρ c) (Proc.devRef .tc main_v15) = _
  rw [host02_v15]
  show broadcastInDim S50000x1 ![0] bcast_S50000_S50000x1_0 (StableHlo.after hostOps0_1 (W1 m ρ c) (Proc.devRef .tc main_v14)) = _
  rw [host01_v14]
  show broadcastInDim S50000x1 ![0] bcast_S50000_S50000x1_0
      (select (s := S50000) (StableHlo.after hostOps0 (W0 m ρ c) (Proc.devRef .tc main_v9))
        (StableHlo.after hostOps0 (W0 m ρ c) (Proc.devRef .tc main_v13))
        (broadcastInDim S50000 ![] bcast_S_S50000 (StableHlo.after hostOps0 (W0 m ρ c) (Proc.devRef .tc main_cst_4)))) = _
  rw [host0_v9, host0_v13, host0_cst4]
  exact invdeg_stage _

set_option maxHeartbeats 8000000 in
/-- The first bias, as a row. -/
theorem entry0_v26 : V3 m ρ c main_v26 = shapeCast S1x256 (m ((c : Thread nD τ).loc main_arg3)) shapeCasts_S256_S1x256 := by
  show StableHlo.after hostOps0_2 (StableHlo.after hostOps0_1 (StableHlo.after hostOps0 (W0 m ρ c))) (Proc.devRef .tc main_v26) = _
  after_results_simp
  rfl

/-! ## From region 0 to region 1 -/

theorem w4_v1 : W4 m ρ c (Proc.devRef .tc main_v1) = val_main_v1 (F := Ideal) (m ((c : Thread nD τ).loc main_arg1)) :=
  (W4_of_ne m ρ c main_v1 (by decide)).trans (w3_v1 m ρ c)

theorem w4_v3 : W4 m ρ c (Proc.devRef .tc main_v3) = val_main_v3 (F := Ideal) (m ((c : Thread nD τ).loc main_arg1)) :=
  (W4_of_ne m ρ c main_v3 (by decide)).trans (w3_v3 m ρ c)

/-- A later argument array is untouched by region 0. -/
theorem w4_arg (b : Ref sig .tc) (hb : b = main_arg6 ∨ b = main_arg7 ∨ b = main_arg8 ∨ b = main_arg9 ∨ b = main_arg10) :
    W4 m ρ c (Proc.devRef .tc b) = m ((c : Thread nD τ).loc b) := by
  rcases hb with rfl | rfl | rfl | rfl | rfl
  · exact (W4_of_ne m ρ c main_arg6 (by decide)).trans (w3_arg m ρ c main_arg6 (by simp))
  · exact (W4_of_ne m ρ c main_arg7 (by decide)).trans (w3_arg m ρ c main_arg7 (by simp))
  · exact (W4_of_ne m ρ c main_arg8 (by decide)).trans (w3_arg m ρ c main_arg8 (by simp))
  · exact (W4_of_ne m ρ c main_arg9 (by decide)).trans (w3_arg m ρ c main_arg9 (by simp))
  · exact (W4_of_ne m ρ c main_arg10 (by decide)).trans (w3_arg m ρ c main_arg10 (by simp))

/-- Region 1's first window: the aggregate of region 0's second output. -/
theorem entry1_v38 : V5 m ρ c main_v38
    = aggK (val_main_v1 (F := Ideal) (m ((c : Thread nD τ).loc main_arg1))) (val_main_v3 (F := Ideal) (m ((c : Thread nD τ).loc main_arg1)))
        ((dat0 (V3 m ρ) c).arrAt 8 cfg0.N) := by
  show StableHlo.after hostOps1 (W4 m ρ c) (Proc.devRef .tc main_v38) = _
  rw [host1_v38, w4_v1, w4_v3]
  exact congrArg (aggK _ _) (W4_arr m ρ c 8)

theorem entry1_v15 : V5 m ρ c main_v15 = val_main_v15 (F := Ideal) (m ((c : Thread nD τ).loc main_arg1)) := by
  show StableHlo.after hostOps1 (W4 m ρ c) (Proc.devRef .tc main_v15) = _
  rw [host1_keep _ main_v15 (by simp)]
  exact ((W4_arr m ρ c 1).trans (((dat0 (V3 m ρ) c).arrAt_in 1 rfl _).trans (A_eq0 (V3 m ρ) c 1))).trans (entry0_v15 m ρ c)

/-- Region 1 reads region 0's first output. -/
theorem entry1_v27_0 : V5 m ρ c main_v27_0 = (dat0 (V3 m ρ) c).arrAt 7 cfg0.N := by
  show StableHlo.after hostOps1 (W4 m ρ c) (Proc.devRef .tc main_v27_0) = _
  rw [host1_keep _ main_v27_0 (by simp)]
  exact W4_arr m ρ c 7

theorem entry1_v39 : V5 m ρ c main_v39 = shapeCast S1x128 (m ((c : Thread nD τ).loc main_arg6)) shapeCasts_S128_S1x128 := by
  show StableHlo.after hostOps1 (W4 m ρ c) (Proc.devRef .tc main_v39) = _
  rw [host1_v39, w4_arg m ρ c main_arg6 (by simp)]

theorem entry1_arg7 : V5 m ρ c main_arg7 = m ((c : Thread nD τ).loc main_arg7) := by
  show StableHlo.after hostOps1 (W4 m ρ c) (Proc.devRef .tc main_arg7) = _
  rw [host1_keep _ main_arg7 (by simp), w4_arg m ρ c main_arg7 (by simp)]

/-! ## From region 1 to region 2 -/

theorem w6_v1 : W6 m ρ c (Proc.devRef .tc main_v1) = val_main_v1 (F := Ideal) (m ((c : Thread nD τ).loc main_arg1)) := by
  rw [W6_of_ne m ρ c main_v1 (by decide)]
  show StableHlo.after hostOps1 (W4 m ρ c) (Proc.devRef .tc main_v1) = _
  rw [host1_keep _ main_v1 (by simp), w4_v1]

theorem w6_v3 : W6 m ρ c (Proc.devRef .tc main_v3) = val_main_v3 (F := Ideal) (m ((c : Thread nD τ).loc main_arg1)) := by
  rw [W6_of_ne m ρ c main_v3 (by decide)]
  show StableHlo.after hostOps1 (W4 m ρ c) (Proc.devRef .tc main_v3) = _
  rw [host1_keep _ main_v3 (by simp), w4_v3]

theorem w6_arg (b : Ref sig .tc) (hb : b = main_arg8 ∨ b = main_arg9 ∨ b = main_arg10) :
    W6 m ρ c (Proc.devRef .tc b) = m ((c : Thread nD τ).loc b) := by
  rcases hb with rfl | rfl | rfl
  · rw [W6_of_ne m ρ c main_arg8 (by decide)]
    show StableHlo.after hostOps1 (W4 m ρ c) (Proc.devRef .tc main_arg8) = _
    rw [host1_keep _ main_arg8 (by simp), w4_arg m ρ c main_arg8 (by simp)]
  · rw [W6_of_ne m ρ c main_arg9 (by decide)]
    show StableHlo.after hostOps1 (W4 m ρ c) (Proc.devRef .tc main_arg9) = _
    rw [host1_keep _ main_arg9 (by simp), w4_arg m ρ c main_arg9 (by simp)]
  · rw [W6_of_ne m ρ c main_arg10 (by decide)]
    show StableHlo.after hostOps1 (W4 m ρ c) (Proc.devRef .tc main_arg10) = _
    rw [host1_keep _ main_arg10 (by simp), w4_arg m ρ c main_arg10 (by simp)]

/-- Region 2's first window: the aggregate of region 1's output. -/
theorem entry2_v51 : V7 m ρ c main_v51
    = aggK (val_main_v1 (F := Ideal) (m ((c : Thread nD τ).loc main_arg1))) (val_main_v3 (F := Ideal) (m ((c : Thread nD τ).loc main_arg1)))
        ((dat1 (V5 m ρ) c).arrAt 5 cfg1.N) := by
  show StableHlo.after hostOps2 (W6 m ρ c) (Proc.devRef .tc main_v51) = _
  rw [host2_v51, w6_v1, w6_v3]
  exact congrArg (aggK _ _) (W6_arr m ρ c 5)

theorem entry2_v15 : V7 m ρ c main_v15 = val_main_v15 (F := Ideal) (m ((c : Thread nD τ).loc main_arg1)) := by
  show StableHlo.after hostOps2 (W6 m ρ c) (Proc.devRef .tc main_v15) = _
  rw [host2_keep _ main_v15 (by simp)]
  exact ((W6_arr m ρ c 1).trans (((dat1 (V5 m ρ) c).arrAt_in 1 rfl _).trans (A_eq1 (V5 m ρ) c 1))).trans (entry1_v15 m ρ c)

/-- Region 2 reads region 1's output. -/
theorem entry2_v40 : V7 m ρ c main_v40 = (dat1 (V5 m ρ) c).arrAt 5 cfg1.N := by
  show StableHlo.after hostOps2 (W6 m ρ c) (Proc.devRef .tc main_v40) = _
  rw [host2_keep _ main_v40 (by simp)]
  exact W6_arr m ρ c 5

theorem entry2_v52 : V7 m ρ c main_v52 = shapeCast S1x128 (m ((c : Thread nD τ).loc main_arg9)) shapeCasts_S128_S1x128 := by
  show StableHlo.after hostOps2 (W6 m ρ c) (Proc.devRef .tc main_v52) = _
  rw [host2_v52, w6_arg m ρ c main_arg9 (by simp)]

theorem entry2_arg8 : V7 m ρ c main_arg8 = m ((c : Thread nD τ).loc main_arg8) := by
  show StableHlo.after hostOps2 (W6 m ρ c) (Proc.devRef .tc main_arg8) = _
  rw [host2_keep _ main_arg8 (by simp), w6_arg m ρ c main_arg8 (by simp)]

theorem entry2_arg10 : V7 m ρ c main_arg10 = m ((c : Thread nD τ).loc main_arg10) := by
  show StableHlo.after hostOps2 (W6 m ρ c) (Proc.devRef .tc main_arg10) = _
  rw [host2_keep _ main_arg10 (by simp), w6_arg m ρ c main_arg10 (by simp)]

/-- The program's result buffer ends holding region 2's output array. -/
theorem result_arr : W8 m ρ c (Proc.devRef .tc main_v53) = (dat2 (V7 m ρ) c).arrAt 6 cfg2.N :=
  W8_arr m ρ c 6

end Cert.SageKer

end
-- ==== Proof.LibRowScatterGather.lean ====
/-
  Row scatters and row gathers of the host, read at an index on the extended reals.

  The shapes are the ones `jax.ops.segment_sum(data, ids)`, `x.at[rows, cols].add(v)` and `x[ids]` lower to when `ids` is
  a flat integer vector of `E` entries, presented to StableHLO as an `[E, 1]` (or `[E, 2]`) array of index vectors:

  * `segDims`   — scatter-add into `[N, C]` of updates `[E, C]` by row: result `(i, c)` is the operand's entry plus the sum of
                  `upd (e, c)` over the entries `e` whose index word, READ SIGNED, equals `i` (`hostScatterAdd_seg_apply`);
  * `vecDims`   — the same for a vector `[N]` and updates `[E]` (`hostScatterAdd_vec_apply`);
  * `denseDims` — scatter-add into a matrix `[N, M]` of updates `[E]` at index pairs: result `(i, j)` adds the updates of the
                  entries whose two index words are `i` and `j` (`hostScatterAdd_dense_apply`);
  * `rowDims`   — gather of rows of `[N, C]`: result `(e, c)` is the operand at row `ids e` read signed and CLAMPED into
                  `[0, N − 1]`, column `c` (`gather_rows_apply`);
  * `vecGDims`  — the same for a vector `[N]` (`gather_vec_apply`).

  A scatter drops an update whose index is out of range and a gather clamps it, so the two treat an out-of-range index
  differently; on indices in range (`toInt_eq_of_lt` turns the signed reading of a word below `N` into the word's value)
  both address row `ids e`.  The general fact underneath the scatters is `resultIdx?_eq_some_iff`: an update lands on an
  operand index exactly when start plus window coordinate equals that index's coordinate on every axis.
  The dimension numbers are stated with their well-formedness as a hypothesis, decided on a program's literal shapes; a
  printed record with these dimension numbers is definitionally the corresponding `…Dims N … wf`.
-/
import Idealize.ShloMosaic.Lib.ValueIdx
import Idealize.ShloMosaic.PureOps.Ideal
import Mathlib.Algebra.BigOperators.Group.Finset.Piecewise

noncomputable section

namespace LibRowScatterGather

open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- For any scatter: update `j` lands on operand index `r` exactly when start plus window coordinate is `r`'s coordinate on
    every axis (and is dropped otherwise). -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i h
    constructor
    · intro heq a
      have := congrFun (Option.some.inj heq) a
      rw [← this]
      exact (Int.toNat_of_nonneg (h a).1).symm
    · intro hall
      refine congrArg some (funext fun a => Fin.ext ?_)
      show (d.start j idx a + d.window j a).toNat = (r a).val
      rw [hall a]; rfl
  · rename_i h
    constructor
    · intro h'; cases h'
    · intro hall; exfalso; apply h; intro a; rw [hall a]
      exact ⟨Int.natCast_nonneg _, by exact_mod_cast (r a).isLt⟩

/-! ## Scatter-add by row into a matrix (a segment sum) -/

section Seg

/-- The dimension numbers of a scatter of updates `[E, C]` into an operand `[N, C]` at row indices `[E, 1]`. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start0 (idx : IVec ⟨2, ![E, 1]⟩ w) (e : Fin E) (c : Fin C) :
    (segDims N E C wf).start (ix2 e c) idx 0 = (idx (ix2 e 0)).toInt := by
  unfold ScatterDims.start
  rw [dif_pos (show (0 : Fin 2) ∈ (segDims N E C wf).scatterDimsToOperandDims from List.mem_singleton.mpr rfl)]
  refine congrArg (fun k => (idx k).toInt) ?_
  funext b; refine Fin.ext ?_
  match b with
  | ⟨0, _⟩ => rfl
  | ⟨1, _⟩ => rfl

theorem start1 (idx : IVec ⟨2, ![E, 1]⟩ w) (j : (⟨2, ![E, C]⟩ : Shape).Idx) :
    (segDims N E C wf).start j idx 1 = 0 := by
  unfold ScatterDims.start
  have h : (1 : Fin 2) ∉ (segDims N E C wf).scatterDimsToOperandDims := (show (1 : Fin 2) ∉ ([0] : List (Fin 2)) from by decide)
  rw [dif_neg h]

theorem window0 (j : (⟨2, ![E, C]⟩ : Shape).Idx) : (segDims N E C wf).window j 0 = 0 := by
  unfold ScatterDims.window
  have h : (0 : Fin 2) ∉ (segDims N E C wf).sKept :=
    (show (0 : Fin 2) ∉ ((List.finRange 2).filter (· ∉ ([0] : List (Fin 2)))) from by decide)
  rw [dif_neg h]

theorem window1 (e : Fin E) (c : Fin C) : (segDims N E C wf).window (ix2 e c) 1 = c.val := by
  unfold ScatterDims.window
  have h : (1 : Fin 2) ∈ (segDims N E C wf).sKept :=
    (show (1 : Fin 2) ∈ ((List.finRange 2).filter (· ∉ ([0] : List (Fin 2)))) from by decide)
  rw [dif_pos h]
  rfl

theorem resultIdx?_seg_iff (idx : IVec ⟨2, ![E, 1]⟩ w) (e : Fin E) (c : Fin C) (i : Fin N) (c' : Fin C) :
    (segDims N E C wf).resultIdx? (ix2 e c) idx = some (ix2 i c') ↔ (idx (ix2 e 0)).toInt = (i.val : Int) ∧ c = c' := by
  rw [resultIdx?_eq_some_iff]
  constructor
  · intro h
    have h0 : (segDims N E C wf).start (ix2 e c) idx 0 + (segDims N E C wf).window (ix2 e c) 0 = ((i.val : ℕ) : ℤ) := h 0
    have h1 : (segDims N E C wf).start (ix2 e c) idx 1 + (segDims N E C wf).window (ix2 e c) 1 = ((c'.val : ℕ) : ℤ) := h 1
    rw [start0, window0] at h0
    rw [start1, window1] at h1
    refine ⟨by simpa using h0, Fin.ext ?_⟩
    have : ((c.val : Int)) = (c'.val : Int) := by simpa using h1
    exact_mod_cast this
  · rintro ⟨h0, rfl⟩ a
    match a with
    | ⟨0, _⟩ => show (segDims N E C wf).start (ix2 e c) idx 0 + (segDims N E C wf).window (ix2 e c) 0 = _; rw [start0, window0, h0]; simp
    | ⟨1, _⟩ => show (segDims N E C wf).start (ix2 e c) idx 1 + (segDims N E C wf).window (ix2 e c) 1 = _; rw [start1, window1]; simp

/-- THE SEGMENT SUM READ AT `(i, c)`: the operand there plus the updates of the rows whose index word, read signed, is `i`. -/
theorem hostScatterAdd_seg_apply (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (segDims N E C wf) x idx upd (ix2 i c)
      = x (ix2 i c) + ∑ e ∈ Finset.univ.filter (fun e : Fin E => (idx (ix2 e 0)).toInt = (i.val : Int)), upd (ix2 e c) := by
  unfold Ideal.hostScatterAdd
  refine congrArg (x (ix2 i c) + ·) ?_
  rw [Finset.sum_filter, sum_idx2, Finset.sum_filter]
  refine Finset.sum_congr rfl fun e _ => ?_
  simp only [resultIdx?_seg_iff]
  by_cases hi : (idx (ix2 e 0)).toInt = (i.val : Int)
  · simp only [hi, true_and, if_true]
    rw [Finset.sum_ite_eq' Finset.univ c fun b => upd (ix2 e b), if_pos (Finset.mem_univ _)]
  · simp only [hi, false_and, if_false, Finset.sum_const_zero]

end Seg

/-! ## Scatter-add into a vector -/

section Vec

/-- The dimension numbers of a scatter of updates `[E]` into an operand `[N]` at indices `[E, 1]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  refine congrArg (fun k => (idx k).toInt) ?_
  funext b; refine Fin.ext ?_
  match b with
  | ⟨0, _⟩ => rfl
  | ⟨1, _⟩ => rfl

theorem vec_window0 (j : (⟨1, ![E]⟩ : Shape).Idx) : (vecDims N E wf).window j 0 = 0 := by
  unfold ScatterDims.window
  have h : (0 : Fin 1) ∉ (vecDims N E wf).sKept :=
    (show (0 : Fin 1) ∉ ((List.finRange 1).filter (· ∉ ([0] : List (Fin 1)))) from by decide)
  rw [dif_neg h]

theorem resultIdx?_vec_iff (idx : IVec ⟨2, ![E, 1]⟩ w) (e : Fin E) (i : Fin N) :
    (vecDims N E wf).resultIdx? (ix1 e) idx = some (ix1 i) ↔ (idx (ix2 e 0)).toInt = (i.val : Int) := by
  rw [resultIdx?_eq_some_iff]
  constructor
  · intro h
    have h0 : (vecDims N E wf).start (ix1 e) idx 0 + (vecDims N E wf).window (ix1 e) 0 = ((i.val : ℕ) : ℤ) := h 0
    rw [vec_start0, vec_window0] at h0
    simpa using h0
  · intro h0 a
    obtain rfl : a = 0 := Subsingleton.elim _ _
    show (vecDims N E wf).start (ix1 e) idx 0 + (vecDims N E wf).window (ix1 e) 0 = ((i.val : ℕ) : ℤ)
    rw [vec_start0, vec_window0, h0]; simp

/-- THE VECTOR SCATTER-ADD READ AT `i`: the operand there plus the updates of the entries whose index word, read signed, is `i`. -/
theorem hostScatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e 0)).toInt = (i.val : Int)), upd (ix1 e) := by
  unfold Ideal.hostScatterAdd
  refine congrArg (x (ix1 i) + ·) ?_
  rw [Finset.sum_filter, sum_idx1, Finset.sum_filter]
  refine Finset.sum_congr rfl fun e _ => ?_
  simp only [resultIdx?_vec_iff]

end Vec

/-! ## Scatter-add into a matrix at index pairs (a dense adjacency matrix from an edge list) -/

section Dense

/-- The dimension numbers of a scatter of updates `[E]` into an operand `[N, M]` at index pairs `[E, 2]`. -/
abbrev denseDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem dense_start0 (idx : IVec ⟨2, ![E, 2]⟩ w) (e : Fin E) :
    (denseDims N M E wf).start (ix1 e) idx 0 = (idx (ix2 e 0)).toInt := by
  unfold ScatterDims.start
  have h : (0 : Fin 2) ∈ (denseDims N M E wf).scatterDimsToOperandDims := (show (0 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_start1 (idx : IVec ⟨2, ![E, 2]⟩ w) (e : Fin E) :
    (denseDims N M E wf).start (ix1 e) idx 1 = (idx (ix2 e 1)).toInt := by
  unfold ScatterDims.start
  have h : (1 : Fin 2) ∈ (denseDims N M E wf).scatterDimsToOperandDims := (show (1 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_window (j : (⟨1, ![E]⟩ : Shape).Idx) (a : Fin 2) : (denseDims N M E wf).window j a = 0 := by
  unfold ScatterDims.window
  have h : a ∉ (denseDims N M E wf).sKept := by
    have : ∀ b : Fin 2, b ∉ ((List.finRange 2).filter (· ∉ ([0, 1] : List (Fin 2)))) := by decide
    exact this a
  rw [dif_neg h]

theorem resultIdx?_dense_iff (idx : IVec ⟨2, ![E, 2]⟩ w) (e : Fin E) (i : Fin N) (j : Fin M) :
    (denseDims N M E wf).resultIdx? (ix1 e) idx = some (ix2 i j)
      ↔ (idx (ix2 e 0)).toInt = (i.val : Int) ∧ (idx (ix2 e 1)).toInt = (j.val : Int) := by
  rw [resultIdx?_eq_some_iff]
  constructor
  · intro h
    have h0 : (denseDims N M E wf).start (ix1 e) idx 0 + (denseDims N M E wf).window (ix1 e) 0 = ((i.val : ℕ) : ℤ) := h 0
    have h1 : (denseDims N M E wf).start (ix1 e) idx 1 + (denseDims N M E wf).window (ix1 e) 1 = ((j.val : ℕ) : ℤ) := h 1
    rw [dense_start0, dense_window] at h0
    rw [dense_start1, dense_window] at h1
    exact ⟨by simpa using h0, by simpa using h1⟩
  · rintro ⟨h0, h1⟩ a
    match a with
    | ⟨0, _⟩ =>
      show (denseDims N M E wf).start (ix1 e) idx 0 + (denseDims N M E wf).window (ix1 e) 0 = _
      rw [dense_start0, dense_window, h0]; simp
    | ⟨1, _⟩ =>
      show (denseDims N M E wf).start (ix1 e) idx 1 + (denseDims N M E wf).window (ix1 e) 1 = _
      rw [dense_start1, dense_window, h1]; simp

/-- THE MATRIX SCATTER-ADD READ AT `(i, j)`: the operand there plus the updates of the entries whose two index words, read
    signed, are `i` and `j`. -/
theorem hostScatterAdd_dense_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (denseDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  unfold Ideal.hostScatterAdd
  refine congrArg (x (ix2 i j) + ·) ?_
  rw [Finset.sum_filter, sum_idx1, Finset.sum_filter]
  refine Finset.sum_congr rfl fun e _ => ?_
  simp only [resultIdx?_dense_iff]

end Dense

/-! ## Gather of rows -/

section Rows
variable {α : Type}

/-- The dimension numbers of a gather of rows of `[N, C]` at row indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `ids e` — read signed and clamped into `[0, N − 1]` — and column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  refine congrArg x ?_
  funext a
  refine Fin.ext ?_
  have hk1 : (1 : Fin 2) ∈ (rowDims N C E wf).sKept :=
    ((rowDims N C E wf).mem_sKept 1).mpr ⟨(show (1 : Fin 2) ∉ ([0] : List (Fin 2)) from by decide), List.not_mem_nil⟩
  have hk0 : (0 : Fin 2) ∉ (rowDims N C E wf).sKept := fun h =>
    (((rowDims N C E wf).mem_sKept 0).mp h).1 (List.mem_singleton.mpr rfl)
  match a with
  | ⟨0, _⟩ =>
    show (rowDims N C E wf).start (ix2 e c) idx 0 + (rowDims N C E wf).batchCoord (ix2 e c) 0 + (rowDims N C E wf).offCoord (ix2 e c) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1 + (rowDims N C E wf).offCoord (ix2 e c) 1 = _
    rw [GatherDims.batchCoord_eq_zero _ _ _ List.not_mem_nil]
    have hs : (rowDims N C E wf).start (ix2 e c) idx 1 = 0 := by
      unfold GatherDims.start
      have h : (1 : Fin 2) ∉ (rowDims N C E wf).startIndexMap := (show (1 : Fin 2) ∉ ([0] : List (Fin 2)) from by decide)
      rw [dif_neg h]
    have ho : (rowDims N C E wf).offCoord (ix2 e c) 1 = c.val := by
      unfold GatherDims.offCoord
      rw [dif_pos hk1]
      rfl
    rw [hs, ho]; simp

end Rows

/-! ## Gather from a vector -/

section VecG
variable {α : Type}

/-- The dimension numbers of a gather from a vector `[N]` at indices `[E, 1]`, result `[E]`. -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `ids e`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e) = x (ix1 ⟨min (idx (ix2 e 0)).toInt.toNat (N - 1), by omega⟩) := by
  unfold Host.gather
  refine congrArg x ?_
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecG

/-! ## An index word in range -/

/-- A 32-bit word that is nonnegative as a signed integer and below `n` reads, signed, as a natural number below `n`:
    the scatter's test `toInt = i` and the gather's clamp `min toNat (n − 1)` then name the same row. -/
theorem clamp_eq_of_inRange {n : Nat} (v : BitVec 32) (i : Fin n) (h : v.toInt = (i.val : Int)) :
    min v.toInt.toNat (n - 1) = i.val := by
  rw [h]; have := i.isLt; simp only [Int.toNat_natCast]; omega

end LibRowScatterGather
-- ==== Proof.SageArrays.lean ====
/-
  The host's neighbour aggregation read as the specification's.

  A row gather `h[src]` followed by a segment sum over `dst` into a zero array is, entry by entry, the sum over the
  edges landing on a node of the source node's feature: the gather reads row `src e` (signed, clamped into range),
  the segment sum adds update row `e` to node `n` exactly when `dst e`, read signed, is `n` (an out-of-range
  destination is dropped).
-/
import proofs.«138262_j68693706932385_2_alg».proof.Proof.SageSpec
import proofs.«138262_j68693706932385_2_alg».proof.Proof.LibRowScatterGather

noncomputable section

namespace Cert.Sage

open Idealize.ShloMosaic Idealize.ShloMosaic.ValueIdx

/-- Gather the source rows, then scatter-add them by destination into zeros: the aggregate `agg`. -/
theorem segsum_gather {N E C : ℕ} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (z : (⟨2, ![N, C]⟩ : Shape).Idx → EReal) (hz : ∀ j, z j = 0) (idxD idxS : IVec (⟨2, ![E, 1]⟩ : Shape) 32)
    (x : (⟨2, ![N, C]⟩ : Shape).Idx → EReal) :
    cur2 (Host.scatterAdd (F := Ideal) (φ := .f32) (LibRowScatterGather.segDims N E C wfS) z idxD
        (Host.gather (LibRowScatterGather.rowDims N C E wfG) x idxS))
      = agg (landing idxD) (srcOf hN idxS) (cur2 x) := by
  funext n c
  show Ideal.hostScatterAdd (LibRowScatterGather.segDims N E C wfS) z idxD
      (Host.gather (LibRowScatterGather.rowDims N C E wfG) x idxS) (ix2 n c) = _
  rw [LibRowScatterGather.hostScatterAdd_seg_apply, hz, zero_add]
  unfold agg landing
  refine Finset.sum_congr rfl fun e _ => ?_
  rw [LibRowScatterGather.gather_rows_apply hN wfG]
  rfl

end Cert.Sage

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.SageKerAgg.lean ====
/-
  The host's neighbour aggregation, on both programs, is the specification's aggregate.

  Both programs aggregate a node array h the same way: wrap a negative source index (add the node count), gather the
  source rows of h, and add each gathered row into a zero array at the row its destination index names.  Entry
  (n, k) of the result is therefore the sum, over the edges e whose destination is n, of h at the source node of e
  and channel k — the specification's  agg.  The destination indices are the edge list's second row as a column,
  the source indices its first row, wrapped, as a column: the very arrays the reference's stages name.
-/
import proofs.«138262_j68693706932385_2_alg».proof.Proof.SageKerHost
import proofs.«138262_j68693706932385_2_alg».proof.Proof.SageArrays
import proofs.«138262_j68693706932385_2_alg».proof.Proof.LibUnitAxes

noncomputable section

open Idealize.ShloMosaic Idealize.ShloMosaic.TcCoe Idealize.SL.Sem Idealize.ShloMosaic.StableHlo Idealize.ShloMosaic.ValueIdx

namespace Cert.SageKer

open Cert.KernelIdeal Cert.KernelIdeal.Gen Cert.Sage
open Cert.ReferenceIdeal.ReadP (val_main_v1 val_main_v3 val_main_v21 val_main_v22 val_main_v23 val_main_v24 val_main_v25
  val_main_v23_apply val_main_cst_6_apply)

/-- The destination column the reference names is the edge list's second row, as a column. -/
theorem dst_column (x1 : (⟨S2x800000, .i32⟩ : BufTy).Contents (Elt Ideal)) :
    val_main_v24 (F := Ideal) x1
      = broadcastInDim S800000x1 ![0] bcast_S800000_S800000x1_0 (val_main_v3 (F := Ideal) x1) := rfl

/-- The source column the reference names is the edge list's first row with negative entries wrapped, as a column. -/
theorem src_column (x1 : (⟨S2x800000, .i32⟩ : BufTy).Contents (Elt Ideal)) :
    val_main_v21 (F := Ideal) x1
      = broadcastInDim S800000x1 ![0] bcast_S800000_S800000x1_0
          (select (cmpi .slt (val_main_v1 (F := Ideal) x1) (broadcastInDim S800000 ![] bcast_S_S800000 (constantI S_ 32 0#32)))
            (addi (val_main_v1 (F := Ideal) x1) (broadcastInDim S800000 ![] bcast_S_S800000 (constantI S_ 32 50000#32)))
            (val_main_v1 (F := Ideal) x1)) := rfl

/-- The zero word spread over a 50000 × 128 array is zero at every index. -/
theorem zeros128 (j : S50000x128.Idx) :
    broadcastInDim S50000x128 ![] bcast_S_S50000x128 (constant (F := Ideal) S_ .f32 0x00000000#32) j = 0 :=
  (Cert.LibUnitAxes.broadcastInDim_scalar_apply _ bcast_S_S50000x128 j).trans Ideal.ofBits_zero_f32

/-- Widening a 16-bit float array to 32 bits changes no extended real. -/
theorem widen_id {s : Shape} (x : FVec Ideal s .bf16) (p : FTy.bits .bf16 < FTy.bits .f32) :
    (extf .f32 x p : FVec Ideal s .f32) = (x : s.Idx → EReal) := rfl

/-- The segment sum's dimension numbers: updates [E, C] added into [N, C] by the row index. -/
theorem scatter128_dims : scatter_S50000x128_S800000x1_S800000x128_1_0_0_1
    = LibRowScatterGather.segDims 50000 800000 128 scatter_S50000x128_S800000x1_S800000x128_1_0_0_1_wf := rfl

/-- The row gather's dimension numbers: rows of [N, C] at the row index. -/
theorem gather128_dims : gather_S50000x128_S800000x1_S800000x128_1_0_n_n_0_1_1128
    = LibRowScatterGather.rowDims 50000 128 800000 gather_S50000x128_S800000x1_S800000x128_1_0_n_n_0_1_1128_wf := rfl

/-- The kernel program's aggregation of a 128-wide array is the specification's aggregate. -/
theorem aggK_spec (x1 : (⟨S2x800000, .i32⟩ : BufTy).Contents (Elt Ideal)) (h : FVec Ideal S50000x128 .bf16) :
    cur2 (aggK (val_main_v1 (F := Ideal) x1) (val_main_v3 (F := Ideal) x1) h)
      = agg (landing (val_main_v24 (F := Ideal) x1)) (srcOf (by decide) (val_main_v21 (F := Ideal) x1)) (cur2 h) := by
  rw [dst_column, src_column]
  unfold aggK
  rw [widen_id, scatter128_dims, gather128_dims]
  have key := segsum_gather (N := 50000) (E := 800000) (C := 128) (by decide)
    scatter_S50000x128_S800000x1_S800000x128_1_0_0_1_wf gather_S50000x128_S800000x1_S800000x128_1_0_n_n_0_1_1128_wf
    (broadcastInDim S50000x128 ![] bcast_S_S50000x128 (constant (F := Ideal) S_ .f32 0x00000000#32)) zeros128
    (broadcastInDim S800000x1 ![0] bcast_S800000_S800000x1_0 (val_main_v3 (F := Ideal) x1))
    (broadcastInDim S800000x1 ![0] bcast_S800000_S800000x1_0
      (select (cmpi .slt (val_main_v1 (F := Ideal) x1) (broadcastInDim S800000 ![] bcast_S_S800000 (constantI S_ 32 0#32)))
        (addi (val_main_v1 (F := Ideal) x1) (broadcastInDim S800000 ![] bcast_S_S800000 (constantI S_ 32 50000#32)))
        (val_main_v1 (F := Ideal) x1)))
    h
  exact key

/-- The reference's zero array of the first aggregation is zero at every index. -/
theorem zeros21 (j : S50000x21.Idx) : val_main_v23 (F := Ideal) j = 0 :=
  (val_main_v23_apply j).trans ((val_main_cst_6_apply _).trans Ideal.ofBits_zero_f32)

/-- The first aggregation (of the 21-wide node features), which both programs compute on the host, is the
    specification's aggregate. -/
theorem agg21_spec (x0 : (⟨S50000x21, .f32⟩ : BufTy).Contents (Elt Ideal)) (x1 : (⟨S2x800000, .i32⟩ : BufTy).Contents (Elt Ideal)) :
    cur2 (val_main_v25 (F := Ideal) x0 x1)
      = agg (landing (val_main_v24 (F := Ideal) x1)) (srcOf (by decide) (val_main_v21 (F := Ideal) x1)) (cur2 x0) := by
  unfold val_main_v25 val_main_v22
  exact segsum_gather (N := 50000) (E := 800000) (C := 21) (by decide)
    Cert.ReferenceIdeal.Facts₀.scatter_S50000x21_S800000x1_S800000x21_1_0_0_1_wf
    Cert.ReferenceIdeal.Facts₀.gather_S50000x21_S800000x1_S800000x21_1_0_n_n_0_1_121_wf
    (val_main_v23 (F := Ideal)) zeros21 (val_main_v24 (F := Ideal) x1) (val_main_v21 (F := Ideal) x1) x0

end Cert.SageKer

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.SageRegion0.lean ====
/-
  The first layer's region, read as arrays.  The region walks the 50000 nodes in ten blocks of 5000 rows.  At each
  block it forms, for every node n of the block and every hidden channel q < 256,

      hidden(n, q) = max( ((Σ_k a(n,k) · Wl(k,q)) · d(n) + b(q)) + Σ_k x(n,k) · Wr(k,q) , 0 )

  from the aggregated features a, the inverse degree d, the node features x, the two weight matrices and the bias
  row, and then its projection  proj(n, c) = Σ_q hidden(n, q) · W(q, c)  for c < 128.  Both are written back
  block by block; since the ten blocks tile the node axis, the two output arrays end holding these two functions of
  the region's input arrays at every index.
-/
import proofs.«138262_j68693706932385_2_alg».proof.Proof.Gen.KernelIdeal.Frame
import proofs.«138262_j68693706932385_2_alg».proof.Proof.SageSpec
import proofs.«138262_j68693706932385_2_alg».proof.Proof.LibPlainDot
import proofs.«138262_j68693706932385_2_alg».proof.Proof.LibUnitAxes
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.SageKer
open Cert.KernelIdeal Cert.KernelIdeal.Gen Cert.Sage

/-! ## The two products' dimension numbers: output (r, c), contraction k ↦ left (r, k), right (k, c) -/

theorem lhs0_hid (j : S5000x256.Idx) (k : dot_S5000x21_S21x256_S5000x256_1_0_0_1_n_n.contr.Idx) :
    (dot_S5000x21_S21x256_S5000x256_1_0_0_1_n_n.lhsIdx j k 0).val = (j 0).val := by
  unfold DotDims.lhsIdx
  rw [dif_neg (show ¬(0 : Fin S5000x21.rank) ∈ dot_S5000x21_S21x256_S5000x256_1_0_0_1_n_n.lhsBatch by decide),
    dif_pos (show (0 : Fin S5000x21.rank) ∈ dot_S5000x21_S21x256_S5000x256_1_0_0_1_n_n.lhsNonContracting by decide)]
  rfl

theorem rhs1_hid (j : S5000x256.Idx) (k : dot_S5000x21_S21x256_S5000x256_1_0_0_1_n_n.contr.Idx) :
    (dot_S5000x21_S21x256_S5000x256_1_0_0_1_n_n.rhsIdx j k 1).val = (j 1).val := by
  unfold DotDims.rhsIdx
  rw [dif_neg (show ¬(1 : Fin S21x256.rank) ∈ dot_S5000x21_S21x256_S5000x256_1_0_0_1_n_n.rhsBatch by decide),
    dif_pos (show (1 : Fin S21x256.rank) ∈ dot_S5000x21_S21x256_S5000x256_1_0_0_1_n_n.rhsNonContracting by decide)]
  rfl

theorem lhs0_proj (j : S5000x128.Idx) (k : dot_S5000x256_S256x128_S5000x128_1_0_0_1_n_n.contr.Idx) :
    (dot_S5000x256_S256x128_S5000x128_1_0_0_1_n_n.lhsIdx j k 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem rhs1_proj (j : S5000x128.Idx) (k : dot_S5000x256_S256x128_S5000x128_1_0_0_1_n_n.contr.Idx) :
    (dot_S5000x256_S256x128_S5000x128_1_0_0_1_n_n.rhsIdx j k 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-! ## The body's arithmetic at an entry -/

/-- The first product into a zero accumulator, at an entry: the sum over the 21 input channels. -/
theorem matmul_hid_at (l : FVec Ideal S5000x21 .bf16) (r : FVec Ideal S21x256 .bf16) (p : Fin 5000) (q : Fin 256) :
    matmul dot_S5000x21_S21x256_S5000x256_1_0_0_1_n_n none l r (constant (F := Ideal) S5000x256 .f32 0x00000000#32) (ix2 p q)
      = ∑ k : Fin 21, l (ix2 p k) * r (ix2 k q) :=
  Cert.LibPlainDot.matmul_zero_apply dot_S5000x21_S21x256_S5000x256_1_0_0_1_n_n rfl rfl rfl rfl lhs0_hid rhs1_hid none l r p q

/-- The second product into a zero accumulator, at an entry: the sum over the 256 hidden channels. -/
theorem matmul_proj_at (l : FVec Ideal S5000x256 .bf16) (r : FVec Ideal S256x128 .bf16) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) :=
  Cert.LibPlainDot.matmul_zero_apply dot_S5000x256_S256x128_S5000x128_1_0_0_1_n_n rfl rfl rfl rfl lhs0_proj rhs1_proj none l r p q

/-- The hidden features of a block at (p, q): the aggregate's product scaled by the row's factor, plus the bias
    row, plus the features' own product, and a maximum with zero. -/
theorem hidden_at (a x : Vec Ideal S5000x21 .f32) (wl wr : Vec Ideal S21x256 .f32) (d : Vec Ideal S5000x1 .f32)
    (b : Vec Ideal S1x256 .f32) (p : Fin 5000) (q : Fin 256) :
    k0_pay1 (F := Ideal) a x wl wr d b (ix2 p q)
      = max (((∑ k : Fin 21, a (ix2 p k) * wl (ix2 k q)) * d (ix2 p (0 : Fin 1)) + b (ix2 (0 : Fin 1) q))
          + ∑ k : Fin 21, x (ix2 p k) * wr (ix2 k q)) 0 := by
  unfold k0_pay1
  rw [truncf_apply, maximumf_apply, addf_apply, addf_apply, mulf_apply, broadcast_apply, matmul_hid_at, matmul_hid_at,
    Cert.LibUnitAxes.broadcastTo_a1_ab_apply, broadcastTo_1b_ab_apply, shapeCast_self, shapeCast_self, shapeCast_self,
    Ideal.ofBits_def, Ideal.ofBits_zero_f32]
  rfl

/-- The projection of a block's hidden features at (p, c): their product with the 256 × 128 weights. -/
theorem proj_at (a x : Vec Ideal S5000x21 .f32) (wl wr : Vec Ideal S21x256 .f32) (d : Vec Ideal S5000x1 .f32)
    (b : Vec Ideal S1x256 .f32) (w : Vec Ideal S256x128 .f32) (p : Fin 5000) (q : Fin 128) :
    k0_pay2 (F := Ideal) a x wl wr d b w (ix2 p q)
      = ∑ h : Fin 256, k0_pay1 (F := Ideal) a x wl wr d b (ix2 p h) * w (ix2 h q) := by
  unfold k0_pay2
  rw [truncf_apply, matmul_proj_at]
  rfl

/-! ## The blocks as rows of the arrays -/

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl

/-- The block index maps over the ten points: a row-blocked window's block index at point t is (t, 0); a weight
    or bias window's is (0, 0) at every point. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Window 0's block at point t is rows 5000 t … 5000 t + 4999 of the aggregated features. -/
theorem agg_block (t : Fin cfg0.N) (p : Fin 5000) (k : Fin 21) (n : Fin 50000) (hn : n.val = t.val * 5000 + p.val) :
    iblk0 (F := Ideal) V c 0 t (ix2 p k) = V c main_v25 (ix2 n k) := by
  obtain ⟨e0, e1, -⟩ := index_maps t
  unfold iblk0
  rw [View.read_apply]
  refine congrArg (V c main_v25) (funext fun a => Fin.ext ?_)
  match a with
  | ⟨0, _⟩ => show win0_0.index t (0 : Fin 2) * 5000 + 1 * p.val = n.val; omega
  | ⟨1, _⟩ => show win0_0.index t (1 : Fin 2) * 21 + 1 * k.val = k.val; omega

/-- Window 1's block at point t is rows 5000 t … of the inverse-degree column. -/
theorem deg_block (t : Fin cfg0.N) (p : Fin 5000) (u : Fin 1) (n : Fin 50000) (hn : n.val = t.val * 5000 + p.val) :
    iblk0 (F := Ideal) V c 1 t (ix2 p u) = V c main_v15 (ix2 n u) := by
  obtain ⟨-, -, e0, e1, -⟩ := index_maps t
  unfold iblk0
  rw [View.read_apply]
  refine congrArg (V c main_v15) (funext fun a => Fin.ext ?_)
  match a with
  | ⟨0, _⟩ => show win0_1.index t (0 : Fin 2) * 5000 + 1 * p.val = n.val; omega
  | ⟨1, _⟩ => show win0_1.index t (1 : Fin 2) * 1 + 1 * u.val = u.val; omega

/-- Window 2's block at point t is rows 5000 t … of the node features. -/
theorem feat_block (t : Fin cfg0.N) (p : Fin 5000) (k : Fin 21) (n : Fin 50000) (hn : n.val = t.val * 5000 + p.val) :
    iblk0 (F := Ideal) V c 2 t (ix2 p k) = V c main_arg0 (ix2 n k) := by
  obtain ⟨-, -, -, -, e0, e1, -⟩ := index_maps t
  unfold iblk0
  rw [View.read_apply]
  refine congrArg (V c main_arg0) (funext fun a => Fin.ext ?_)
  match a with
  | ⟨0, _⟩ => show win0_2.index t (0 : Fin 2) * 5000 + 1 * p.val = n.val; omega
  | ⟨1, _⟩ => show win0_2.index t (1 : Fin 2) * 21 + 1 * k.val = k.val; omega

/-- Window 3's block is the whole left weight matrix at every point. -/
theorem wl_block (t : Fin cfg0.N) (k : Fin 21) (q : Fin 256) :
    iblk0 (F := Ideal) V c 3 t (ix2 k q) = V c main_arg2 (ix2 k q) := by
  obtain ⟨-, -, -, -, -, -, e0, e1, -⟩ := index_maps t
  unfold iblk0
  rw [View.read_apply]
  refine congrArg (V c main_arg2) (funext fun a => Fin.ext ?_)
  match a with
  | ⟨0, _⟩ => show win0_3.index t (0 : Fin 2) * 21 + 1 * k.val = k.val; omega
  | ⟨1, _⟩ => show win0_3.index t (1 : Fin 2) * 256 + 1 * q.val = q.val; omega

/-- Window 4's block is the whole bias row at every point. -/
theorem bias_block (t : Fin cfg0.N) (u : Fin 1) (q : Fin 256) :
    iblk0 (F := Ideal) V c 4 t (ix2 u q) = V c main_v26 (ix2 u q) := by
  obtain ⟨-, -, -, -, -, -, -, -, e0, e1, -⟩ := index_maps t
  unfold iblk0
  rw [View.read_apply]
  refine congrArg (V c main_v26) (funext fun a => Fin.ext ?_)
  match a with
  | ⟨0, _⟩ => show win0_4.index t (0 : Fin 2) * 1 + 1 * u.val = u.val; omega
  | ⟨1, _⟩ => show win0_4.index t (1 : Fin 2) * 256 + 1 * q.val = q.val; omega

/-- Window 5's block is the whole right weight matrix at every point. -/
theorem wr_block (t : Fin cfg0.N) (k : Fin 21) (q : Fin 256) :
    iblk0 (F := Ideal) V c 5 t (ix2 k q) = V c main_arg4 (ix2 k q) := by
  obtain ⟨-, -, -, -, -, -, -, -, -, -, e0, e1, -⟩ := index_maps t
  unfold iblk0
  rw [View.read_apply]
  refine congrArg (V c main_arg4) (funext fun a => Fin.ext ?_)
  match a with
  | ⟨0, _⟩ => show win0_5.index t (0 : Fin 2) * 21 + 1 * k.val = k.val; omega
  | ⟨1, _⟩ => show win0_5.index t (1 : Fin 2) * 256 + 1 * q.val = q.val; omega

/-- Window 6's block is the whole projection matrix at every point. -/
theorem wp_block (t : Fin cfg0.N) (h : Fin 256) (q : Fin 128) :
    iblk0 (F := Ideal) V c 6 t (ix2 h q) = V c main_arg5 (ix2 h q) := by
  obtain ⟨-, -, -, -, -, -, -, -, -, -, -, -, e0, e1, -⟩ := index_maps t
  unfold iblk0
  rw [View.read_apply]
  refine congrArg (V c main_arg5) (funext fun a => Fin.ext ?_)
  match a with
  | ⟨0, _⟩ => show win0_6.index t (0 : Fin 2) * 256 + 1 * h.val = h.val; omega
  | ⟨1, _⟩ => show win0_6.index t (1 : Fin 2) * 128 + 1 * q.val = q.val; omega

/-! ## The two whole-array functions -/

/-- The hidden features of all 50000 nodes, as one array. -/
def hiddenArr : S50000x256.Idx → EReal := fun j =>
  relu (fun n q => (dot (cur2 (V c main_v25)) (cur2 (V c main_arg2)) n q * V c main_v15 (ix2 n 0) + V c main_v26 (ix2 0 q))
    + dot (cur2 (V c main_arg0)) (cur2 (V c main_arg4)) n q) (j 0) (j 1)

/-- Their projection, as one array. -/
def projArr : S50000x128.Idx → EReal := fun j =>
  dot (relu (fun n q => (dot (cur2 (V c main_v25)) (cur2 (V c main_arg2)) n q * V c main_v15 (ix2 n 0) + V c main_v26 (ix2 0 q))
    + dot (cur2 (V c main_arg0)) (cur2 (V c main_arg4)) n q)) (cur2 (V c main_arg5)) (j 0) (j 1)

/-- The body's hidden features of block t at (p, q) are the array's at row 5000 t + p. -/
theorem hidden_block (t : Fin cfg0.N) (p : Fin 5000) (q : Fin 256) (n : Fin 50000) (hn : n.val = t.val * 5000 + p.val) :
    k0_pay1 (F := Ideal) (iblk0 V c 0 t) (iblk0 V c 2 t) (iblk0 V c 3 t) (iblk0 V c 5 t) (iblk0 V c 1 t) (iblk0 V c 4 t) (ix2 p q)
      = hiddenArr V c (ix2 n q) := by
  refine (hidden_at (iblk0 V c 0 t) (iblk0 V c 2 t) (iblk0 V c 3 t) (iblk0 V c 5 t) (iblk0 V c 1 t) (iblk0 V c 4 t) p q).trans ?_
  show _ = max ((dot (cur2 (V c main_v25)) (cur2 (V c main_arg2)) n q * V c main_v15 (ix2 n 0) + V c main_v26 (ix2 0 q))
      + dot (cur2 (V c main_arg0)) (cur2 (V c main_arg4)) n q) 0
  refine congrArg₂ max (congrArg₂ (· + ·) (congrArg₂ (· + ·) (congrArg₂ (· * ·)
      (Finset.sum_congr rfl fun k _ => congrArg₂ (· * ·) (agg_block V c t p k n hn) (wl_block V c t k q))
      (deg_block V c t p 0 n hn)) (bias_block V c t 0 q))
      (Finset.sum_congr rfl fun k _ => congrArg₂ (· * ·) (feat_block V c t p k n hn) (wr_block V c t k q))) rfl

/-- The body's projection of block t at (p, q) is the array's at row 5000 t + p. -/
theorem proj_block (t : Fin cfg0.N) (p : Fin 5000) (q : Fin 128) (n : Fin 50000) (hn : n.val = t.val * 5000 + p.val) :
    k0_pay2 (F := Ideal) (iblk0 V c 0 t) (iblk0 V c 2 t) (iblk0 V c 3 t) (iblk0 V c 5 t) (iblk0 V c 1 t) (iblk0 V c 4 t) (iblk0 V c 6 t) (ix2 p q)
      = projArr V c (ix2 n q) := by
  refine (proj_at (iblk0 V c 0 t) (iblk0 V c 2 t) (iblk0 V c 3 t) (iblk0 V c 5 t) (iblk0 V c 1 t) (iblk0 V c 4 t) (iblk0 V c 6 t) p q).trans ?_
  show _ = ∑ h : Fin 256, hiddenArr V c (ix2 n h) * cur2 (α := EReal) (V c main_arg5) h q
  exact Finset.sum_congr rfl fun h _ => congrArg₂ (· * ·) (hidden_block V c t p h n hn) (wp_block V c t h q)

/-! ## What each point writes back -/

/-- Point t writes back block t of the hidden-feature array. -/
theorem flushed_hidden (t : Fin cfg0.N) :
    (dat0 (F := Ideal) V c).flushed 7 t = ((cfg0.win 7).blk t).view.read (Elt Ideal) (hiddenArr V c) := by
  show (cfg0.win 7).cut (grid0.coords t) ((dat0 V c).after 7 t) = _
  rw [after0_7]
  unfold out0_7
  rw [View.canon_unit_zero zeros2]
  simp only [View.ld_unit_zero (S := S5000x21) zeros2, View.ld_unit_zero (S := S21x256) zeros2,
    View.ld_unit_zero (S := S5000x1) zeros2, View.ld_unit_zero (S := S1x256) zeros2]
  show (fun y : S5000x256.Idx => k0_pay1 (F := Ideal) (iblk0 V c 0 t) (iblk0 V c 2 t) (iblk0 V c 3 t) (iblk0 V c 5 t)
      (iblk0 V c 1 t) (iblk0 V c 4 t) y) = fun y : S5000x256.Idx => hiddenArr V c (((cfg0.win 7).blk t).view.emb y)
  funext y
  obtain ⟨p, q, rfl⟩ : ∃ (p : Fin 5000) (q : Fin 256), y = ix2 p q := ⟨y 0, y 1, eq_ix2 y⟩
  obtain ⟨n, q', hj⟩ : ∃ (n : Fin 50000) (q' : Fin 256), ((cfg0.win 7).blk t).view.emb (ix2 p q) = ix2 n q' := ⟨_, _, eq_ix2 _⟩
  obtain ⟨-, -, -, -, -, -, -, -, -, -, -, -, -, -, e0, e1, -⟩ := index_maps t
  have h0 : win0_7.index t (0 : Fin 2) * 5000 + 1 * p.val = n.val := congrArg (fun j : S50000x256.Idx => (j 0).val) hj
  have h1 : win0_7.index t (1 : Fin 2) * 256 + 1 * q.val = q'.val := congrArg (fun j : S50000x256.Idx => (j 1).val) hj
  obtain rfl : q' = q := Fin.ext (by omega)
  rw [hj]
  exact hidden_block V c t p q' n (by omega)

/-- Point t writes back block t of the projection array. -/
theorem flushed_proj (t : Fin cfg0.N) :
    (dat0 (F := Ideal) V c).flushed 8 t = ((cfg0.win 8).blk t).view.read (Elt Ideal) (projArr V c) := by
  show (cfg0.win 8).cut (grid0.coords t) ((dat0 V c).after 8 t) = _
  rw [after0_8]
  unfold out0_8
  rw [View.canon_unit_zero zeros2]
  simp only [View.ld_unit_zero (S := S5000x21) zeros2, View.ld_unit_zero (S := S21x256) zeros2,
    View.ld_unit_zero (S := S5000x1) zeros2, View.ld_unit_zero (S := S1x256) zeros2, View.ld_unit_zero (S := S256x128) zeros2]
  show (fun y : S5000x128.Idx => k0_pay2 (F := Ideal) (iblk0 V c 0 t) (iblk0 V c 2 t) (iblk0 V c 3 t) (iblk0 V c 5 t)
      (iblk0 V c 1 t) (iblk0 V c 4 t) (iblk0 V c 6 t) y) = fun y : S5000x128.Idx => projArr V c (((cfg0.win 8).blk t).view.emb y)
  funext y
  obtain ⟨p, q, rfl⟩ : ∃ (p : Fin 5000) (q : Fin 128), y = ix2 p q := ⟨y 0, y 1, eq_ix2 y⟩
  obtain ⟨n, q', hj⟩ : ∃ (n : Fin 50000) (q' : Fin 128), ((cfg0.win 8).blk t).view.emb (ix2 p q) = ix2 n q' := ⟨_, _, eq_ix2 _⟩
  obtain ⟨-, -, -, -, -, -, -, -, -, -, -, -, -, -, -, -, e0, e1⟩ := index_maps t
  have h0 : win0_8.index t (0 : Fin 2) * 5000 + 1 * p.val = n.val := congrArg (fun j : S50000x128.Idx => (j 0).val) hj
  have h1 : win0_8.index t (1 : Fin 2) * 128 + 1 * q.val = q'.val := congrArg (fun j : S50000x128.Idx => (j 1).val) hj
  obtain rfl : q' = q := Fin.ext (by omega)
  rw [hj]
  exact proj_block V c t p q' n (by omega)

/-! ## The ten blocks tile the node axis -/

/-- An index of the hidden-feature array is in point t's block iff each coordinate is in the block's range. -/
theorem mem_hidden_block (t : Fin cfg0.N) (i : S50000x256.Idx) :
    i ∈ ((cfg0.win 7).blk t).view.set ↔ ∀ a : Fin 2, win0_7.index t a * S5000x256.size a ≤ (i a).val
      ∧ (i a).val < win0_7.index t a * S5000x256.size a + S5000x256.size a := by
  show i ∈ ((View.whole main_v27_0).slice (win0_7.rect t)).set ↔ _
  rw [View.set_slice_whole, Rect.mem_set_unit]
  exact Iff.rfl

/-- An index of the projection array is in point t's block iff each coordinate is in the block's range. -/
theorem mem_proj_block (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v27_1).slice (win0_8.rect t)).set ↔ _
  rw [View.set_slice_whole, Rect.mem_set_unit]
  exact Iff.rfl

/-- Row r of the hidden-feature array is in the block of point r / 5000. -/
theorem cover_hidden (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : (i 0).val / 5000 < cfg0.N := by show (i 0).val / 5000 < 10; omega
  refine ⟨⟨(i 0).val / 5000, hN⟩, flush0_7 _, ?_⟩
  rw [mem_hidden_block]
  obtain ⟨-, -, -, -, -, -, -, -, -, -, -, -, -, -, e0, e1, -⟩ := index_maps ⟨(i 0).val / 5000, hN⟩
  have e0' : win0_7.index ⟨(i 0).val / 5000, hN⟩ (0 : Fin 2) = (i 0).val / 5000 := e0
  intro a
  match a with
  | ⟨0, _⟩ =>
    show win0_7.index ⟨(i 0).val / 5000, hN⟩ (0 : Fin 2) * 5000 ≤ (i 0).val
      ∧ (i 0).val < win0_7.index ⟨(i 0).val / 5000, hN⟩ (0 : Fin 2) * 5000 + 5000
    omega
  | ⟨1, _⟩ =>
    show win0_7.index ⟨(i 0).val / 5000, hN⟩ (1 : Fin 2) * 256 ≤ (i 1).val
      ∧ (i 1).val < win0_7.index ⟨(i 0).val / 5000, hN⟩ (1 : Fin 2) * 256 + 256
    omega

/-- Row r of the projection array is in the block of point r / 5000. -/
theorem cover_proj (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : (i 0).val / 5000 < cfg0.N := by show (i 0).val / 5000 < 10; omega
  refine ⟨⟨(i 0).val / 5000, hN⟩, flush0_8 _, ?_⟩
  rw [mem_proj_block]
  obtain ⟨-, -, -, -, -, -, -, -, -, -, -, -, -, -, -, -, e0, e1⟩ := index_maps ⟨(i 0).val / 5000, hN⟩
  have e0' : win0_8.index ⟨(i 0).val / 5000, hN⟩ (0 : Fin 2) = (i 0).val / 5000 := e0
  intro a
  match a with
  | ⟨0, _⟩ =>
    show win0_8.index ⟨(i 0).val / 5000, hN⟩ (0 : Fin 2) * 5000 ≤ (i 0).val
      ∧ (i 0).val < win0_8.index ⟨(i 0).val / 5000, hN⟩ (0 : Fin 2) * 5000 + 5000
    omega
  | ⟨1, _⟩ =>
    show win0_8.index ⟨(i 0).val / 5000, hN⟩ (1 : Fin 2) * 128 ≤ (i 1).val
      ∧ (i 1).val < win0_8.index ⟨(i 0).val / 5000, hN⟩ (1 : Fin 2) * 128 + 128
    omega

/-! ## The two output arrays after the region -/

/-- The hidden-feature array ends holding, at every node and channel, the first layer in its scale-after-product
    form followed by a maximum with zero. -/
theorem region0_h : (dat0 (F := Ideal) V c).arrAt 7 cfg0.N
    = fun j => relu (fun n q => (dot (cur2 (V c main_v25)) (cur2 (V c main_arg2)) n q * V c main_v15 (ix2 n 0) + V c main_v26 (ix2 0 q))
        + dot (cur2 (V c main_arg0)) (cur2 (V c main_arg4)) n q) (j 0) (j 1) :=
  (dat0 (F := Ideal) V c).arrAt_eq_of_cover 7 (hiddenArr V c) (fun t _ => flushed_hidden V c t) (cover_hidden)

/-- The projection array ends holding the product of those hidden features with the 256 × 128 weights. -/
theorem region0_p : (dat0 (F := Ideal) V c).arrAt 8 cfg0.N
    = fun j => dot (relu (fun n q => (dot (cur2 (V c main_v25)) (cur2 (V c main_arg2)) n q * V c main_v15 (ix2 n 0) + V c main_v26 (ix2 0 q))
        + dot (cur2 (V c main_arg0)) (cur2 (V c main_arg4)) n q)) (cur2 (V c main_arg5)) (j 0) (j 1) :=
  (dat0 (F := Ideal) V c).arrAt_eq_of_cover 8 (projArr V c) (fun t _ => flushed_proj V c t) (cover_proj)

end Cert.SageKer

end
-- ==== Proof.SageRegion1.lean ====
/-
  The second layer's kernel, read as one function of the arrays it is given.

  The region runs over ten row blocks of 5000 rows.  At a block it forms, entry by entry,
      max( (a(n,c) · d(n) + b(c)) + Σ_k h(n,k) · Wr(k,c) , 0 )
  from the block's rows of the aggregated projection a, of the inverse degrees d and of the features h, and from the
  whole weight and bias arrays, and writes the block back.  The blocks tile the 50000 rows, so the result array is that
  function of the whole arrays at every index.
-/
import proofs.«138262_j68693706932385_2_alg».proof.Proof.Gen.KernelIdeal.Frame
import proofs.«138262_j68693706932385_2_alg».proof.Proof.SageSpec
import proofs.«138262_j68693706932385_2_alg».proof.Proof.LibPlainDot
import proofs.«138262_j68693706932385_2_alg».proof.Proof.LibUnitAxes

noncomputable section

open Idealize.ShloMosaic Idealize.ShloMosaic.TcCoe Idealize.SL.Sem Idealize.ShloMosaic.ValueIdx

namespace Cert.SageKer
open Cert.KernelIdeal Cert.KernelIdeal.Gen Cert.Sage

/-! ## The block's arithmetic at an entry -/

/-- In the 5000 × 256 by 256 × 128 product the left operand's row is the output's row. -/
theorem dotL2_row (j : S5000x128.Idx) (k : dot_S5000x256_S256x128_S5000x128_1_0_0_1_n_n.contr.Idx) :
    (dot_S5000x256_S256x128_S5000x128_1_0_0_1_n_n.lhsIdx j k 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- … and the right operand's column is the output's column. -/
theorem dotL2_col (j : S5000x128.Idx) (k : dot_S5000x256_S256x128_S5000x128_1_0_0_1_n_n.contr.Idx) :
    (dot_S5000x256_S256x128_S5000x128_1_0_0_1_n_n.rhsIdx j k 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The block's product into the zero accumulator, at an entry: the sum over the 256 inner coordinates. -/
theorem matmulL2_apply {φ₁ φ₂ : FTy} (lhs : FVec Ideal S5000x256 φ₁) (rhs : FVec Ideal S256x128 φ₂) (p : Fin 5000) (q : Fin 128) :
    FloatOps.matmul dot_S5000x256_S256x128_S5000x128_1_0_0_1_n_n none lhs rhs (constant S5000x128 .f32 0x00000000#32) (ix2 p q)
      = ∑ k : Fin 256, lhs (ix2 p k) * rhs (ix2 k q) :=
  Cert.LibPlainDot.matmul_zero_apply (M := 5000) (K := 256) (N := 128) dot_S5000x256_S256x128_S5000x128_1_0_0_1_n_n
    rfl rfl rfl rfl dotL2_row dotL2_col none lhs rhs p q

/-- The value the body stores, at row p and column q of the block. -/
theorem payL2_apply (v0 : Vec Ideal S5000x128 .f32) (v2 : Vec Ideal S5000x1 .f32) (v6 : Vec Ideal S1x128 .f32)
    (v10 : Vec Ideal S5000x256 .bf16) (v12 : Vec Ideal S256x128 .f32) (p : Fin 5000) (q : Fin 128) :
    k1_pay1 (F := Ideal) v0 v2 v6 v10 v12 (ix2 p q)
      = max ((v0 (ix2 p q) * v2 (ix2 p 0) + v6 (ix2 0 q)) + ∑ k : Fin 256, v10 (ix2 p k) * v12 (ix2 k q)) 0 := by
  unfold k1_pay1
  show max ((shapeCast S5000x128 v0 shapeCasts_S5000x128_S5000x128 (ix2 p q)
          * broadcastTo S5000x128 (shapeCast S5000x1 v2 shapeCasts_S5000x1_S5000x1) broadcasts_S5000x1_S5000x128 (ix2 p q)
        + broadcastTo S5000x128 (shapeCast S1x128 v6 shapeCasts_S1x128_S1x128) broadcasts_S1x128_S5000x128 (ix2 p q))
        + FloatOps.matmul (F := Ideal) dot_S5000x256_S256x128_S5000x128_1_0_0_1_n_n none
            (shapeCast S5000x256 v10 shapeCasts_S5000x256_S5000x256) (truncf .bf16 v12 bitsLt_bf16_f32)
            (constant S5000x128 .f32 0x00000000#32) (ix2 p q))
      (Ideal.ofBits .f32 0x00000000#32) = _
  rw [matmulL2_apply, Cert.LibUnitAxes.broadcastTo_a1_ab_apply, broadcastTo_1b_ab_apply,
    shapeCast_self, shapeCast_self, shapeCast_self, shapeCast_self, Ideal.ofBits_zero_f32]
  rfl

/-! ## What a point writes back -/

theorem offs00' : (![0, 0] : Fin 2 → Nat) = fun _ => 0 := funext fun a => by fin_cases a <;> rfl

/-- The buffer the body leaves is its one whole-block store: the stored value of the blocks as loaded whole. -/
theorem outL2_eq (x0 : Vec Ideal S5000x128 .f32) (x1 : Vec Ideal S5000x1 .f32) (x2 : Vec Ideal S5000x256 .bf16)
    (x3 : Vec Ideal S1x128 .f32) (x4 : Vec Ideal S256x128 .f32) :
    out1_5 (F := Ideal) x0 x1 x2 x3 x4 = k1_pay1 (F := Ideal) x0 x1 x3 x2 x4 := by
  unfold out1_5
  rw [View.canon_unit_zero offs00']
  simp only [View.ld_unit_zero (S := S5000x128) offs00', View.ld_unit_zero (S := S5000x1) offs00',
    View.ld_unit_zero (S := S1x128) offs00', View.ld_unit_zero (S := S5000x256) offs00',
    View.ld_unit_zero (S := S256x128) offs00']

/-- The printed block index maps over the ten points: the row-blocked windows sit at block row t, column block 0; the
    bias and weight windows at block (0, 0). -/
theorem idxL2 : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- The layer's result as one function of the arrays the region is given: at node n and column q,
    max((a(n,q) · d(n) + b(q)) + Σ_k h(n,k) · Wr(k,q), 0). -/
def resL2 (V : (c : Dev nD) → (b : Ref sig .tc) → Buf (Elt Ideal) ((c : Thread nD τ).loc b)) (c : Dev nD) :
    S50000x128.Idx → EReal := fun j =>
  relu (fun n q => (cur2 (α := EReal) (V c main_v38) n q * V c main_v15 (ix2 n 0) + V c main_v39 (ix2 0 q))
    + dot (cur2 (V c main_v27_0)) (cur2 (V c main_arg7)) n q) (j 0) (j 1)

/-- The stored value at row p, column q of a block whose rows are rows of whole arrays: when the block's row p is row r
    of the aggregated projection, of the inverse degrees and of the features, and the bias and weights are the whole
    arrays, the stored value is the layer's result at (r, q). -/
theorem blockL2_core (A0 : S50000x128.Idx → EReal) (A1 : S50000x1.Idx → EReal) (A2 : S50000x256.Idx → EReal)
    (A3 : S1x128.Idx → EReal) (A4 : S256x128.Idx → EReal)
    (x0 : Vec Ideal S5000x128 .f32) (x1 : Vec Ideal S5000x1 .f32) (x2 : Vec Ideal S5000x256 .bf16)
    (x3 : Vec Ideal S1x128 .f32) (x4 : Vec Ideal S256x128 .f32)
    (p : Fin 5000) (q : Fin 128) (r : Fin 50000)
    (h0 : x0 (ix2 p q) = A0 (ix2 r q)) (h1 : x1 (ix2 p 0) = A1 (ix2 r 0))
    (h2 : ∀ k : Fin 256, x2 (ix2 p k) = A2 (ix2 r k)) (h3 : x3 (ix2 0 q) = A3 (ix2 0 q))
    (h4 : ∀ k : Fin 256, x4 (ix2 k q) = A4 (ix2 k q)) :
    k1_pay1 (F := Ideal) x0 x1 x3 x2 x4 (ix2 p q)
      = relu (fun n q => (cur2 A0 n q * A1 (ix2 n 0) + A3 (ix2 0 q)) + dot (cur2 A2) (cur2 A4) n q) r q := by
  rw [payL2_apply]
  unfold relu dot cur2
  rw [h0, h1, h3]
  exact congrArg (fun s => max ((A0 (ix2 r q) * A1 (ix2 r 0) + A3 (ix2 0 q)) + s) 0)
    (Finset.sum_congr rfl fun k _ => by rw [h2 k, h4 k])

/-- WHAT POINT t WRITES BACK is block t of the layer's result. -/
theorem flushedL2_eq (t : Fin cfg1.N) :
    (dat1 (F := Ideal) V c).flushed 5 t = ((cfg1.win 5).blk t).view.read (Elt Ideal) (resL2 V c) := by
  show (cfg1.win 5).cut (grid1.coords t) ((dat1 V c).after 5 t) = _
  rw [after1_5, outL2_eq]
  obtain ⟨ht, a00, a01, a10, a11, a20, a21, a30, a31, a40, a41, a50, a51⟩ := idxL2 t
  funext y
  obtain ⟨p, q, rfl⟩ : ∃ (p : Fin 5000) (q : Fin 128), y = ix2 p q := ⟨y 0, y 1, eq_ix2 y⟩
  have hp : p.val < 5000 := p.isLt
  obtain ⟨r, hr⟩ : ∃ r : Fin 50000, r.val = t.val * 5000 + p.val := ⟨⟨t.val * 5000 + p.val, by omega⟩, rfl⟩
  have e5 : ((cfg1.win 5).blk t).view.emb (ix2 p q) = ix2 r q := by
    funext a; apply Fin.ext
    match a with
    | ⟨0, _⟩ => show win1_5.index t (0 : Fin 2) * 5000 + 1 * p.val = r.val; omega
    | ⟨1, _⟩ => show win1_5.index t (1 : Fin 2) * 128 + 1 * q.val = q.val; omega
  show _ = resL2 V c (((cfg1.win 5).blk t).view.emb (ix2 p q))
  rw [e5]
  refine blockL2_core (V c main_v38) (V c main_v15) (V c main_v27_0) (V c main_v39) (V c main_arg7)
    (iblk1 V c 0 t) (iblk1 V c 1 t) (iblk1 V c 2 t) (iblk1 V c 3 t) (iblk1 V c 4 t) p q r ?_ ?_ ?_ ?_ ?_
  · show V c main_v38 (((cfg1.win 0).blk t).view.emb (ix2 p q)) = _
    refine congrArg (V c main_v38) ?_
    funext a; apply Fin.ext
    match a with
    | ⟨0, _⟩ => show win1_0.index t (0 : Fin 2) * 5000 + 1 * p.val = r.val; omega
    | ⟨1, _⟩ => show win1_0.index t (1 : Fin 2) * 128 + 1 * q.val = q.val; omega
  · show V c main_v15 (((cfg1.win 1).blk t).view.emb (ix2 p 0)) = _
    refine congrArg (V c main_v15) ?_
    funext a; apply Fin.ext
    match a with
    | ⟨0, _⟩ => show win1_1.index t (0 : Fin 2) * 5000 + 1 * p.val = r.val; omega
    | ⟨1, _⟩ => show win1_1.index t (1 : Fin 2) * 1 + 1 * 0 = 0; omega
  · intro k
    show V c main_v27_0 (((cfg1.win 2).blk t).view.emb (ix2 p k)) = _
    refine congrArg (V c main_v27_0) ?_
    funext a; apply Fin.ext
    match a with
    | ⟨0, _⟩ => show win1_2.index t (0 : Fin 2) * 5000 + 1 * p.val = r.val; omega
    | ⟨1, _⟩ => show win1_2.index t (1 : Fin 2) * 256 + 1 * k.val = k.val; omega
  · show V c main_v39 (((cfg1.win 3).blk t).view.emb (ix2 0 q)) = _
    refine congrArg (V c main_v39) ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega
  · intro k
    show V c main_arg7 (((cfg1.win 4).blk t).view.emb (ix2 k q)) = _
    refine congrArg (V c main_arg7) ?_
    funext a; apply Fin.ext
    match a with
    | ⟨0, _⟩ => show win1_4.index t (0 : Fin 2) * 256 + 1 * k.val = k.val; omega
    | ⟨1, _⟩ => show win1_4.index t (1 : Fin 2) * 128 + 1 * q.val = q.val; omega

/-! ## The blocks tile the array -/

/-- An index of the array is in point t's block iff each coordinate is in the block's range on its axis. -/
theorem memL2 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Row r lies in the block of point r / 5000. -/
theorem coverL2 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, htv⟩ : ∃ t : Fin cfg1.N, t.val = (i 0).val / 5000 :=
    ⟨⟨(i 0).val / 5000, by rw [show cfg1.N = 10 from N_1]; omega⟩, rfl⟩
  obtain ⟨ht, a00, a01, a10, a11, a20, a21, a30, a31, a40, a41, a50, a51⟩ := idxL2 t
  refine ⟨t, flush1_5 t, ?_⟩
  rw [memL2]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-! ## The result array -/

/-- After the region the result array holds the layer's result at every index. -/
theorem region1_h : (dat1 (F := Ideal) V c).arrAt 5 cfg1.N
    = fun j => relu (fun n q => (cur2 (α := EReal) (V c main_v38) n q * V c main_v15 (ix2 n 0) + V c main_v39 (ix2 0 q))
        + dot (cur2 (V c main_v27_0)) (cur2 (V c main_arg7)) n q) (j 0) (j 1) :=
  (dat1 (F := Ideal) V c).arrAt_eq_of_cover 5 (resL2 V c) (fun t _ => flushedL2_eq V c t) coverL2

end Cert.SageKer
end
-- ==== Proof.SageRegion2.lean ====
/-
  The third layer's kernel, read as one function of the arrays it is given.

  The region runs over ten row blocks of 5000 rows.  At a block it forms, entry by entry,
      ((Σ_k a(n,k) · Wl(k,c)) · d(n) + b(c)) + Σ_k h(n,k) · Wr(k,c)
  from the block's rows of the aggregate a, of the inverse degrees d and of the features h, and from the whole weight
  and bias arrays, and writes the block back.  The blocks tile the 50000 rows, so the result array is that function of
  the whole arrays at every index.
-/
import proofs.«138262_j68693706932385_2_alg».proof.Proof.Gen.KernelIdeal.Frame
import proofs.«138262_j68693706932385_2_alg».proof.Proof.SageSpec
import proofs.«138262_j68693706932385_2_alg».proof.Proof.LibPlainDot
import proofs.«138262_j68693706932385_2_alg».proof.Proof.LibUnitAxes

noncomputable section

open Idealize.ShloMosaic Idealize.ShloMosaic.TcCoe Idealize.SL.Sem Idealize.ShloMosaic.ValueIdx

namespace Cert.SageKer
open Cert.KernelIdeal Cert.KernelIdeal.Gen Cert.Sage

/-! ## The block's arithmetic at an entry -/

/-- In the 5000 × 128 by 128 × 128 product the left operand's row is the output's row. -/
theorem dotL3_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the right operand's column is the output's column. -/
theorem dotL3_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block's product into the zero accumulator, at an entry: the sum over the 128 inner coordinates. -/
theorem matmulL3_apply {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant S5000x128 .f32 0x00000000#32) (ix2 p q)
      = ∑ k : Fin 128, lhs (ix2 p k) * rhs (ix2 k q) :=
  Cert.LibPlainDot.matmul_zero_apply (M := 5000) (K := 128) (N := 128) dot_S5000x128_S128x128_S5000x128_1_0_0_1_n_n
    rfl rfl rfl rfl dotL3_row dotL3_col none lhs rhs p q

/-- The value the body stores, at row p and column q of the block. -/
theorem payL3_apply (v0 : Vec Ideal S5000x128 .f32) (v3 : Vec Ideal S5000x128 .bf16) (v5 v7 : Vec Ideal S128x128 .f32)
    (v10 : Vec Ideal S5000x1 .f32) (v14 : Vec Ideal S1x128 .f32) (p : Fin 5000) (q : Fin 128) :
    k2_pay1 (F := Ideal) v0 v3 v5 v7 v10 v14 (ix2 p q)
      = ((∑ k : Fin 128, v0 (ix2 p k) * v5 (ix2 k q)) * v10 (ix2 p 0) + v14 (ix2 0 q))
        + ∑ k : Fin 128, v3 (ix2 p k) * v7 (ix2 k q) := by
  unfold k2_pay1
  show (FloatOps.matmul (F := Ideal) dot_S5000x128_S128x128_S5000x128_1_0_0_1_n_n none
          (truncf .bf16 (shapeCast S5000x128 v0 shapeCasts_S5000x128_S5000x128) bitsLt_bf16_f32) (truncf .bf16 v5 bitsLt_bf16_f32)
          (constant S5000x128 .f32 0x00000000#32) (ix2 p q)
        * broadcastTo S5000x128 (shapeCast S5000x1 v10 shapeCasts_S5000x1_S5000x1) broadcasts_S5000x1_S5000x128 (ix2 p q)
      + broadcastTo S5000x128 (shapeCast S1x128 v14 shapeCasts_S1x128_S1x128) broadcasts_S1x128_S5000x128 (ix2 p q))
      + FloatOps.matmul (F := Ideal) dot_S5000x128_S128x128_S5000x128_1_0_0_1_n_n none
          (shapeCast S5000x128 v3 shapeCasts_S5000x128_S5000x128) (truncf .bf16 v7 bitsLt_bf16_f32)
          (constant S5000x128 .f32 0x00000000#32) (ix2 p q) = _
  rw [matmulL3_apply, matmulL3_apply, Cert.LibUnitAxes.broadcastTo_a1_ab_apply, broadcastTo_1b_ab_apply,
    shapeCast_self, shapeCast_self, shapeCast_self, shapeCast_self]
  rfl

/-! ## What a point writes back -/

theorem offs00 : (![0, 0] : Fin 2 → Nat) = fun _ => 0 := funext fun a => by fin_cases a <;> rfl

/-- The buffer the body leaves is its one whole-block store: the stored value of the blocks as loaded whole. -/
theorem outL3_eq (x0 : Vec Ideal S5000x128 .f32) (x1 : Vec Ideal S5000x1 .f32) (x2 : Vec Ideal S5000x128 .bf16)
    (x3 : Vec Ideal S128x128 .f32) (x4 : Vec Ideal S1x128 .f32) (x5 : Vec Ideal S128x128 .f32) :
    out2_6 (F := Ideal) x0 x1 x2 x3 x4 x5 = k2_pay1 (F := Ideal) x0 x2 x3 x5 x1 x4 := by
  unfold out2_6
  rw [View.canon_unit_zero offs00]
  simp only [View.ld_unit_zero (S := S5000x128) offs00, View.ld_unit_zero (S := S128x128) offs00,
    View.ld_unit_zero (S := S5000x1) offs00, View.ld_unit_zero (S := S1x128) offs00]

/-- The printed block index maps over the ten points: the row-blocked windows sit at block row t, column block 0; the
    weight and bias windows at block (0, 0). -/
theorem idxL3 : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b)) (c : Dev nD)

/-- The layer's result as one function of the arrays the region is given: at node n and column q,
    ((Σ_k a(n,k) · Wl(k,q)) · d(n) + b(q)) + Σ_k h(n,k) · Wr(k,q). -/
def resL3 (V : (c : Dev nD) → (b : Ref sig .tc) → Buf (Elt Ideal) ((c : Thread nD τ).loc b)) (c : Dev nD) :
    S50000x128.Idx → EReal := fun j =>
  (dot (cur2 (V c main_v51)) (cur2 (V c main_arg8)) (j 0) (j 1) * V c main_v15 (ix2 (j 0) 0) + V c main_v52 (ix2 0 (j 1)))
    + dot (cur2 (V c main_v40)) (cur2 (V c main_arg10)) (j 0) (j 1)

/-- The stored value at row p, column q of a block whose rows are rows of whole arrays: when the block's row p is row r
    of the aggregate, of the inverse degrees and of the features, and the weights and bias are the whole arrays, the
    stored value is the layer's result at (r, q). -/
theorem blockL3_core (A0 : S50000x128.Idx → EReal) (A1 : S50000x1.Idx → EReal) (A2 : S50000x128.Idx → EReal)
    (A3 : S128x128.Idx → EReal) (A4 : S1x128.Idx → EReal) (A5 : S128x128.Idx → EReal)
    (x0 : Vec Ideal S5000x128 .f32) (x1 : Vec Ideal S5000x1 .f32) (x2 : Vec Ideal S5000x128 .bf16)
    (x3 : Vec Ideal S128x128 .f32) (x4 : Vec Ideal S1x128 .f32) (x5 : Vec Ideal S128x128 .f32)
    (p : Fin 5000) (q : Fin 128) (r : Fin 50000)
    (h0 : ∀ k : Fin 128, x0 (ix2 p k) = A0 (ix2 r k)) (h1 : x1 (ix2 p 0) = A1 (ix2 r 0))
    (h2 : ∀ k : Fin 128, x2 (ix2 p k) = A2 (ix2 r k)) (h3 : ∀ k : Fin 128, x3 (ix2 k q) = A3 (ix2 k q))
    (h4 : x4 (ix2 0 q) = A4 (ix2 0 q)) (h5 : ∀ k : Fin 128, x5 (ix2 k q) = A5 (ix2 k q)) :
    k2_pay1 (F := Ideal) x0 x2 x3 x5 x1 x4 (ix2 p q)
      = (dot (cur2 A0) (cur2 A3) r q * A1 (ix2 r 0) + A4 (ix2 0 q)) + dot (cur2 A2) (cur2 A5) r q := by
  rw [payL3_apply]
  unfold dot cur2
  rw [h1, h4]
  exact congrArg₂ (· + ·)
    (congrArg (fun s => s * A1 (ix2 r 0) + A4 (ix2 0 q)) (Finset.sum_congr rfl fun k _ => by rw [h0 k, h3 k]))
    (Finset.sum_congr rfl fun k _ => by rw [h2 k, h5 k])

/-- WHAT POINT t WRITES BACK is block t of the layer's result. -/
theorem flushedL3_eq (t : Fin cfg2.N) :
    (dat2 (F := Ideal) V c).flushed 6 t = ((cfg2.win 6).blk t).view.read (Elt Ideal) (resL3 V c) := by
  show (cfg2.win 6).cut (grid2.coords t) ((dat2 V c).after 6 t) = _
  rw [after2_6, outL3_eq]
  obtain ⟨ht, a00, a01, a10, a11, a20, a21, a30, a31, a40, a41, a50, a51, a60, a61⟩ := idxL3 t
  funext y
  obtain ⟨p, q, rfl⟩ : ∃ (p : Fin 5000) (q : Fin 128), y = ix2 p q := ⟨y 0, y 1, eq_ix2 y⟩
  have hp : p.val < 5000 := p.isLt
  obtain ⟨r, hr⟩ : ∃ r : Fin 50000, r.val = t.val * 5000 + p.val := ⟨⟨t.val * 5000 + p.val, by omega⟩, rfl⟩
  have e6 : ((cfg2.win 6).blk t).view.emb (ix2 p q) = ix2 r q := by
    funext a; apply Fin.ext
    match a with
    | ⟨0, _⟩ => show win2_6.index t (0 : Fin 2) * 5000 + 1 * p.val = r.val; omega
    | ⟨1, _⟩ => show win2_6.index t (1 : Fin 2) * 128 + 1 * q.val = q.val; omega
  show _ = resL3 V c (((cfg2.win 6).blk t).view.emb (ix2 p q))
  rw [e6]
  refine blockL3_core (V c main_v51) (V c main_v15) (V c main_v40) (V c main_arg8) (V c main_v52) (V c main_arg10)
    (iblk2 V c 0 t) (iblk2 V c 1 t) (iblk2 V c 2 t) (iblk2 V c 3 t) (iblk2 V c 4 t) (iblk2 V c 5 t) p q r ?_ ?_ ?_ ?_ ?_ ?_
  · intro k
    show V c main_v51 (((cfg2.win 0).blk t).view.emb (ix2 p k)) = _
    refine congrArg (V c main_v51) ?_
    funext a; apply Fin.ext
    match a with
    | ⟨0, _⟩ => show win2_0.index t (0 : Fin 2) * 5000 + 1 * p.val = r.val; omega
    | ⟨1, _⟩ => show win2_0.index t (1 : Fin 2) * 128 + 1 * k.val = k.val; omega
  · show V c main_v15 (((cfg2.win 1).blk t).view.emb (ix2 p 0)) = _
    refine congrArg (V c main_v15) ?_
    funext a; apply Fin.ext
    match a with
    | ⟨0, _⟩ => show win2_1.index t (0 : Fin 2) * 5000 + 1 * p.val = r.val; omega
    | ⟨1, _⟩ => show win2_1.index t (1 : Fin 2) * 1 + 1 * 0 = 0; omega
  · intro k
    show V c main_v40 (((cfg2.win 2).blk t).view.emb (ix2 p k)) = _
    refine congrArg (V c main_v40) ?_
    funext a; apply Fin.ext
    match a with
    | ⟨0, _⟩ => show win2_2.index t (0 : Fin 2) * 5000 + 1 * p.val = r.val; omega
    | ⟨1, _⟩ => show win2_2.index t (1 : Fin 2) * 128 + 1 * k.val = k.val; omega
  · intro k
    show V c main_arg8 (((cfg2.win 3).blk t).view.emb (ix2 k q)) = _
    refine congrArg (V c main_arg8) ?_
    funext a; apply Fin.ext
    match a with
    | ⟨0, _⟩ => show win2_3.index t (0 : Fin 2) * 128 + 1 * k.val = k.val; omega
    | ⟨1, _⟩ => show win2_3.index t (1 : Fin 2) * 128 + 1 * q.val = q.val; omega
  · show V c main_v52 (((cfg2.win 4).blk t).view.emb (ix2 0 q)) = _
    refine congrArg (V c main_v52) ?_
    funext a; apply Fin.ext
    match a with
    | ⟨0, _⟩ => show win2_4.index t (0 : Fin 2) * 1 + 1 * 0 = 0; omega
    | ⟨1, _⟩ => show win2_4.index t (1 : Fin 2) * 128 + 1 * q.val = q.val; omega
  · intro k
    show V c main_arg10 (((cfg2.win 5).blk t).view.emb (ix2 k q)) = _
    refine congrArg (V c main_arg10) ?_
    funext a; apply Fin.ext
    match a with
    | ⟨0, _⟩ => show win2_5.index t (0 : Fin 2) * 128 + 1 * k.val = k.val; omega
    | ⟨1, _⟩ => show win2_5.index t (1 : Fin 2) * 128 + 1 * q.val = q.val; omega

/-! ## The blocks tile the array -/

/-- An index of the array is in point t's block iff each coordinate is in the block's range on its axis. -/
theorem memL3 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v53).slice (win2_6.rect t)).set ↔ _
  rw [View.set_slice_whole, Rect.mem_set_unit]
  exact Iff.rfl

/-- Row r lies in the block of point r / 5000. -/
theorem coverL3 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, htv⟩ : ∃ t : Fin cfg2.N, t.val = (i 0).val / 5000 :=
    ⟨⟨(i 0).val / 5000, by rw [show cfg2.N = 10 from N_2]; omega⟩, rfl⟩
  obtain ⟨ht, a00, a01, a10, a11, a20, a21, a30, a31, a40, a41, a50, a51, a60, a61⟩ := idxL3 t
  refine ⟨t, flush2_6 t, ?_⟩
  rw [memL3]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-! ## The result array -/

/-- After the region the result array holds the layer's result at every index. -/
theorem region2_h : (dat2 (F := Ideal) V c).arrAt 6 cfg2.N
    = fun j => (dot (cur2 (V c main_v51)) (cur2 (V c main_arg8)) (j 0) (j 1) * V c main_v15 (ix2 (j 0) 0) + V c main_v52 (ix2 0 (j 1)))
        + dot (cur2 (V c main_v40)) (cur2 (V c main_arg10)) (j 0) (j 1) :=
  (dat2 (F := Ideal) V c).arrAt_eq_of_cover 6 (resL3 V c) (fun t _ => flushedL3_eq V c t) coverL3

end Cert.SageKer
end
-- ==== Proof.SageKerValue.lean ====
/-
  The kernel program's result as the network in the kernel's arrangement.

  Region 0 turns the aggregated input features into the first hidden layer (form A: multiply, then scale by the
  inverse degree) and its projection by the second layer's neighbour weights; the host aggregates that projection;
  region 1 adds the scaled aggregate, the bias and the root term (form B); the host aggregates its output; region 2
  is form A again without the maximum.  Each region's output array, read at (n, q), is the specification's term.
-/
import proofs.«138262_j68693706932385_2_alg».proof.Proof.SageKerEntry
import proofs.«138262_j68693706932385_2_alg».proof.Proof.SageKerAgg
import proofs.«138262_j68693706932385_2_alg».proof.Proof.SageRegion0
import proofs.«138262_j68693706932385_2_alg».proof.Proof.SageRegion1
import proofs.«138262_j68693706932385_2_alg».proof.Proof.SageRegion2
import Idealize.ShloMosaic.Lib.ValueLayout

noncomputable section

open Idealize.ShloMosaic Idealize.ShloMosaic.TcCoe Idealize.SL.Sem Idealize.ShloMosaic.StableHlo Idealize.ShloMosaic.ValueIdx

namespace Cert.SageKer

open Cert.KernelIdeal Cert.KernelIdeal.Gen Cert.Sage
open Cert.ReferenceIdeal.ReadP (val_main_v1 val_main_v3 val_main_v15 val_main_v21 val_main_v24 val_main_v25)

/-- The edges landing on each node, from the launch's edge list. -/
abbrev Lof (x1 : (⟨S2x800000, .i32⟩ : BufTy).Contents (Elt Ideal)) : Fin 50000 → Finset (Fin 800000) :=
  landing (val_main_v24 (F := Ideal) x1)

/-- Each edge's source node. -/
abbrev sof (x1 : (⟨S2x800000, .i32⟩ : BufTy).Contents (Elt Ideal)) : Fin 800000 → Fin 50000 :=
  srcOf (by decide) (val_main_v21 (F := Ideal) x1)

/-- Each node's inverse in-degree. -/
abbrev dof (x1 : (⟨S2x800000, .i32⟩ : BufTy).Contents (Elt Ideal)) : Fin 50000 → EReal :=
  fun n => val_main_v15 (F := Ideal) x1 (ix2 n 0)

variable (m : (ℓ : Loc nD τ sig) → Buf (Elt Ideal) ℓ) (ρ : Dev nD → PrngReg) (c : Dev nD)

/-- A bias reshaped to a row reads, at column `q`, the bias at `q`. -/
theorem row_apply {a : ℕ} (x : (⟨1, ![a]⟩ : Shape).Idx → EReal) (h : (⟨1, ![a]⟩ : Shape).ShapeCasts ⟨2, ![1, a]⟩) (q : Fin a) :
    shapeCast (⟨2, ![1, a]⟩ : Shape) x h (ix2 0 q) = cur1 x q :=
  shapeCast_a_1a_apply x h 0 q

/-- The first layer's body, over any arrays: the maximum with zero of (aggregate · Wl) scaled by the inverse degree,
    plus the bias, plus the root term, is the specification's first hidden layer in form A. -/
theorem layer1_core (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) :
    relu (fun (n : Fin 50000) (q : Fin 256) =>
        (dot (cur2 (val_main_v25 (F := Ideal) x0 x1)) (cur2 x2) n q * val_main_v15 (F := Ideal) x1 (ix2 n 0)
          + shapeCast S1x256 x3 shapeCasts_S256_S1x256 (ix2 0 q)) + dot (cur2 x0) (cur2 x4) n q)
      = hid1 (Lof x1) (sof x1) (dof x1) (cur2 x0) (cur2 x2) (cur1 x3) (cur2 x4) := by
  funext n q
  rw [agg21_spec]
  unfold hid1 relu layerA
  beta_reduce
  rw [row_apply]

/-- Region 0's first output is the first hidden layer in form A. -/
theorem hidden1 (n : Fin 50000) (q : Fin 256) :
    (dat0 (V3 m ρ) c).arrAt 7 cfg0.N (ix2 n q)
      = hid1 (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4))) n q := by
  have e0 : V3 m ρ c main_arg0 = (m ((c : Thread nD τ).loc main_arg0)) := w3_arg m ρ c main_arg0 (by simp)
  have e2 : V3 m ρ c main_arg2 = (m ((c : Thread nD τ).loc main_arg2)) := w3_arg m ρ c main_arg2 (by simp)
  have e4 : V3 m ρ c main_arg4 = (m ((c : Thread nD τ).loc main_arg4)) := w3_arg m ρ c main_arg4 (by simp)
  rw [region0_h (V3 m ρ) c]
  show relu _ n q = _
  rw [entry0_v25 m ρ c, entry0_v15 m ρ c, entry0_v26 m ρ c, e0, e2, e4, layer1_core]

/-- Region 0's second output is the first hidden layer projected by the second layer's neighbour weights. -/
theorem proj1 (n : Fin 50000) (q : Fin 128) :
    (dat0 (V3 m ρ) c).arrAt 8 cfg0.N (ix2 n q)
      = dot (hid1 (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4)))) (cur2 (m ((c : Thread nD τ).loc main_arg5))) n q := by
  have e0 : V3 m ρ c main_arg0 = (m ((c : Thread nD τ).loc main_arg0)) := w3_arg m ρ c main_arg0 (by simp)
  have e2 : V3 m ρ c main_arg2 = (m ((c : Thread nD τ).loc main_arg2)) := w3_arg m ρ c main_arg2 (by simp)
  have e4 : V3 m ρ c main_arg4 = (m ((c : Thread nD τ).loc main_arg4)) := w3_arg m ρ c main_arg4 (by simp)
  have e5 : V3 m ρ c main_arg5 = (m ((c : Thread nD τ).loc main_arg5)) := w3_arg m ρ c main_arg5 (by simp)
  rw [region0_p (V3 m ρ) c]
  show dot (relu _) _ n q = _
  rw [entry0_v25 m ρ c, entry0_v15 m ρ c, entry0_v26 m ρ c, e0, e2, e4, e5, layer1_core]

/-- Region 1's output is the second hidden layer in form B. -/
theorem hidden2 (n : Fin 50000) (q : Fin 128) :
    (dat1 (V5 m ρ) c).arrAt 5 cfg1.N (ix2 n q)
      = hid2 (Lof (m ((c : Thread nD τ).loc main_arg1))) (sof (m ((c : Thread nD τ).loc main_arg1))) (dof (m ((c : Thread nD τ).loc main_arg1)))
          (hid1 (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4))))
          (cur2 (m ((c : Thread nD τ).loc main_arg5))) (cur1 (m ((c : Thread nD τ).loc main_arg6))) (cur2 (m ((c : Thread nD τ).loc main_arg7))) n q := by
  rw [region1_h (V5 m ρ) c]
  show relu _ n q = _
  rw [entry1_v38 m ρ c, entry1_v15 m ρ c, entry1_v39 m ρ c, entry1_v27_0 m ρ c, entry1_arg7 m ρ c, aggK_spec]
  have hp : cur2 ((dat0 (V3 m ρ) c).arrAt 8 cfg0.N) = dot (hid1 (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4)))) (cur2 (m ((c : Thread nD τ).loc main_arg5))) :=
    funext fun n => funext fun q => proj1 m ρ c n q
  have hh : cur2 ((dat0 (V3 m ρ) c).arrAt 7 cfg0.N) = hid1 (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4))) :=
    funext fun n => funext fun q => hidden1 m ρ c n q
  rw [hp, hh]
  unfold hid2 relu layerB
  beta_reduce
  rw [row_apply]

/-- THE KERNEL PROGRAM'S RESULT: its last buffer ends holding, at every entry, the network in the kernel's arrangement
    of the launch arguments. -/
theorem kernel_value (n : Fin 50000) (q : Fin 128) : W8 m ρ c (Proc.devRef .tc main_v53) (ix2 n q)
    = netKer (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4)))
        (cur2 (m ((c : Thread nD τ).loc main_arg5))) (cur1 (m ((c : Thread nD τ).loc main_arg6))) (cur2 (m ((c : Thread nD τ).loc main_arg7))) (cur2 (m ((c : Thread nD τ).loc main_arg8))) (cur1 (m ((c : Thread nD τ).loc main_arg9))) (cur2 (m ((c : Thread nD τ).loc main_arg10))) n q := by
  have hh : cur2 ((dat1 (V5 m ρ) c).arrAt 5 cfg1.N) = hid2 (Lof (m ((c : Thread nD τ).loc main_arg1))) (sof (m ((c : Thread nD τ).loc main_arg1))) (dof (m ((c : Thread nD τ).loc main_arg1)))
      (hid1 (Lof (m ((c : Thread nD τ).loc main_arg1))) (sof (m ((c : Thread nD τ).loc main_arg1))) (dof (m ((c : Thread nD τ).loc main_arg1))) (cur2 (m ((c : Thread nD τ).loc main_arg0))) (cur2 (m ((c : Thread nD τ).loc main_arg2))) (cur1 (m ((c : Thread nD τ).loc main_arg3))) (cur2 (m ((c : Thread nD τ).loc main_arg4))))
      (cur2 (m ((c : Thread nD τ).loc main_arg5))) (cur1 (m ((c : Thread nD τ).loc main_arg6))) (cur2 (m ((c : Thread nD τ).loc main_arg7))) :=
    funext fun n => funext fun q => hidden2 m ρ c n q
  rw [result_arr m ρ c, region2_h (V7 m ρ) c]
  show (dot _ _ n q * V7 m ρ c main_v15 (ix2 n 0) + V7 m ρ c main_v52 (ix2 0 q)) + dot _ _ n q = _
  rw [entry2_v51 m ρ c, entry2_v15 m ρ c, entry2_v52 m ρ c, entry2_v40 m ρ c, entry2_arg8 m ρ c, entry2_arg10 m ρ c, aggK_spec, hh]
  unfold netKer layerA
  rw [row_apply]

end Cert.SageKer

end
-- ==== Proof.SageRefValue.lean ====
/-
  The reference program read as the specification's network.

  The reference runs three layers  h ↦ ((segment_sum(h[src], dst) · inv_deg) · Wl + bl) + h · Wr  with a maximum
  with zero after the first two.  Each layer's neighbour aggregation is a row gather followed by a scatter-add into
  zeros, which is the specification's `agg` over the edges landing on a node; the scaling by the inverse-degree
  column, the two matrix products and the bias are read entry by entry, and the three layers share one edge
  structure: the second and third layers' index arrays are the first layer's, spelt again.
-/
import proofs.«138262_j68693706932385_2_alg».proof.Proof.RefReadP
import proofs.«138262_j68693706932385_2_alg».proof.Proof.SageSpec
import proofs.«138262_j68693706932385_2_alg».proof.Proof.SageArrays

noncomputable section

open Idealize.ShloMosaic Idealize.ShloMosaic.TcCoe Idealize.SL.Sem Idealize.ShloMosaic.ValueIdx

namespace Cert.SageRef
open Cert.ReferenceIdeal Cert.ReferenceIdeal.ReadP Cert.Sage

/-! ## Reading a curried array -/

theorem cur2_apply {α : Type} {a b : ℕ} (x : (⟨2, ![a, b]⟩ : Shape).Idx → α) (p : Fin a) (q : Fin b) :
    cur2 x p q = x (ix2 p q) := rfl

theorem cur1_apply {α : Type} {a : ℕ} (x : (⟨1, ![a]⟩ : Shape).Idx → α) (p : Fin a) : cur1 x p = x (ix1 p) := rfl

/-- One layer of the reference read entry by entry, over any input array and any aggregate of it:
    `((Σ_k aggv(n,k) · d(n) · Wl(k,c)) + bl(c)) + Σ_k h(n,k) · Wr(k,c)` is the specification's layer once the
    aggregate array is the specification's aggregate of `h`. -/
theorem layer_of_entries {N E K C : ℕ} (L : Fin N → Finset (Fin E)) (s : Fin E → Fin N) (d : Fin N → EReal)
    (h aggv : (⟨2, ![N, K]⟩ : Shape).Idx → EReal) (hagg : cur2 aggv = agg L s (cur2 h))
    (Wl Wr : (⟨2, ![K, C]⟩ : Shape).Idx → EReal) (bl : (⟨1, ![C]⟩ : Shape).Idx → EReal) (n : Fin N) (c : Fin C) :
    ((∑ k : Fin K, aggv (ix2 n k) * d n * Wl (ix2 k c)) + bl (ix1 c)) + ∑ k : Fin K, h (ix2 n k) * Wr (ix2 k c)
      = layerRef L s d (cur2 h) (cur2 Wl) (cur1 bl) (cur2 Wr) n c := by
  unfold layerRef dot
  rw [← hagg]
  rfl

/-- A maximum with a zero array, entry by entry, is the specification's `relu`. -/
theorem relu_of_entries {N C : ℕ} (f : (⟨2, ![N, C]⟩ : Shape).Idx → EReal) (n : Fin N) (c : Fin C) :
    max (f (ix2 n c)) 0 = relu (cur2 f) n c := rfl

/-! ## The three layers -/

/-- The first layer, before its maximum with zero: the specification's layer of the input features. -/
theorem layer1 (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) :
    cur2 (val_main_v33 (F := Ideal) x0 x1 x2 x3 x4)
      = layerRef (landing (val_main_v24 (F := Ideal) x1)) (srcOf (by decide) (val_main_v21 (F := Ideal) x1))
          (fun n => val_main_v15 (F := Ideal) x1 (ix2 n 0)) (cur2 x0) (cur2 x2) (cur1 x3) (cur2 x4) := by
  have hS : scatter_S50000x21_S800000x1_S800000x21_1_0_0_1
      = LibRowScatterGather.segDims 50000 800000 21 Facts₀.scatter_S50000x21_S800000x1_S800000x21_1_0_0_1_wf := rfl
  have hG : gather_S50000x21_S800000x1_S800000x21_1_0_n_n_0_1_121
      = LibRowScatterGather.rowDims 50000 21 800000 Facts₀.gather_S50000x21_S800000x1_S800000x21_1_0_n_n_0_1_121_wf := rfl
  have hagg : cur2 (val_main_v25 (F := Ideal) x0 x1)
      = agg (landing (val_main_v24 (F := Ideal) x1)) (srcOf (by decide) (val_main_v21 (F := Ideal) x1)) (cur2 x0) := by
    unfold val_main_v25 val_main_v22
    rw [hS, hG]
    exact segsum_gather (by decide) Facts₀.scatter_S50000x21_S800000x1_S800000x21_1_0_0_1_wf
      Facts₀.gather_S50000x21_S800000x1_S800000x21_1_0_n_n_0_1_121_wf (val_main_v23 (F := Ideal))
      (fun j => by rw [val_main_v23_apply, val_main_cst_6_apply]; exact Ideal.ofBits_zero_f32)
      (val_main_v24 (F := Ideal) x1) (val_main_v21 (F := Ideal) x1) x0
  funext n c
  rw [cur2_apply, val_main_v33_apply, val_main_v31_apply, val_main_v28_apply, val_main_v30_apply,
    val_main_v29_apply, val_main_v32_apply]
  have e1 : ∀ k : Fin 21, lidx_main_v28 (ix2 n c) k = ix2 n k := fun k => funext fun a => by
    match a with | ⟨0, _⟩ => rfl | ⟨1, _⟩ => rfl
  have e2 : ∀ k : Fin 21, ridx_main_v28 (ix2 n c) k = ix2 k c := fun k => funext fun a => by
    match a with | ⟨0, _⟩ => rfl | ⟨1, _⟩ => rfl
  have e3 : ∀ k : Fin 21, idx_main_v26 (ix2 n k) = ix2 n 0 := fun k => funext fun a => by
    match a with | ⟨0, _⟩ => rfl | ⟨1, _⟩ => rfl
  have e4 : idx_main_v29 (idx_main_v30 (ix2 n c)) = ix1 c := funext fun a => by
    match a with | ⟨0, _⟩ => rfl
  have e5 : ∀ k : Fin 21, lidx_main_v32 (ix2 n c) k = ix2 n k := fun k => funext fun a => by
    match a with | ⟨0, _⟩ => rfl | ⟨1, _⟩ => rfl
  have e6 : ∀ k : Fin 21, ridx_main_v32 (ix2 n c) k = ix2 k c := fun k => funext fun a => by
    match a with | ⟨0, _⟩ => rfl | ⟨1, _⟩ => rfl
  rw [Ideal.addf_def, Ideal.addf_def, e4]
  refine Eq.trans ?_ (layer_of_entries _ _ (fun n => val_main_v15 (F := Ideal) x1 (ix2 n 0)) x0
    (val_main_v25 (F := Ideal) x0 x1) hagg x2 x4 x3 n c)
  refine congrArg₂ (· + ·) (congrArg (· + x3 (ix1 c)) (Finset.sum_congr rfl fun k _ => ?_))
    (Finset.sum_congr rfl fun k _ => ?_)
  · rw [val_main_v27_apply, val_main_v26_apply, Ideal.mulf_def, e1, e2, e3]
  · rw [e5, e6]

/-- The first hidden features: the maximum of the first layer with zero. -/
theorem relu1 (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) :
    cur2 (val_main_v34 (F := Ideal) x0 x1 x2 x3 x4) = relu (cur2 (val_main_v33 (F := Ideal) x0 x1 x2 x3 x4)) := by
  funext n c
  rw [cur2_apply, val_main_v34_apply, val_main_call1_v0_apply, val_main_call1_cst_apply, Ideal.maximumf_def, Ideal.ofBits_def,
    Ideal.ofBits_zero_f32]
  exact relu_of_entries (val_main_v33 (F := Ideal) x0 x1 x2 x3 x4) n c

/-- The second layer, before its maximum with zero: the specification's layer of the first hidden features. Its scatter and gather index stages are the first layer's, spelt again. -/
theorem layer2 (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal)) :
    cur2 (val_main_v52 (F := Ideal) x0 x1 x2 x3 x4 x5 x6 x7)
      = layerRef (landing (val_main_v24 (F := Ideal) x1)) (srcOf (by decide) (val_main_v21 (F := Ideal) x1))
          (fun n => val_main_v15 (F := Ideal) x1 (ix2 n 0)) (cur2 (val_main_v34 (F := Ideal) x0 x1 x2 x3 x4)) (cur2 x5) (cur1 x6) (cur2 x7) := by
  have hS : scatter_S50000x256_S800000x1_S800000x256_1_0_0_1
      = LibRowScatterGather.segDims 50000 800000 256 Facts₀.scatter_S50000x256_S800000x1_S800000x256_1_0_0_1_wf := rfl
  have hG : gather_S50000x256_S800000x1_S800000x256_1_0_n_n_0_1_1256
      = LibRowScatterGather.rowDims 50000 256 800000 Facts₀.gather_S50000x256_S800000x1_S800000x256_1_0_n_n_0_1_1256_wf := rfl
  have hagg : cur2 (val_main_v44 (F := Ideal) x0 x1 x2 x3 x4)
      = agg (landing (val_main_v24 (F := Ideal) x1)) (srcOf (by decide) (val_main_v21 (F := Ideal) x1)) (cur2 (val_main_v34 (F := Ideal) x0 x1 x2 x3 x4)) := by
    unfold val_main_v44 val_main_v41
    rw [hS, hG]
    rw [show val_main_v43 (F := Ideal) x1 = val_main_v24 (F := Ideal) x1 from rfl,
      show val_main_v40 (F := Ideal) x1 = val_main_v21 (F := Ideal) x1 from rfl]
    exact segsum_gather (by decide) Facts₀.scatter_S50000x256_S800000x1_S800000x256_1_0_0_1_wf
      Facts₀.gather_S50000x256_S800000x1_S800000x256_1_0_n_n_0_1_1256_wf (val_main_v42 (F := Ideal))
      (fun j => by rw [val_main_v42_apply, val_main_cst_9_apply]; exact Ideal.ofBits_zero_f32)
      (val_main_v24 (F := Ideal) x1) (val_main_v21 (F := Ideal) x1) (val_main_v34 (F := Ideal) x0 x1 x2 x3 x4)
  funext n c
  rw [cur2_apply, val_main_v52_apply, val_main_v50_apply, val_main_v47_apply, val_main_v49_apply,
    val_main_v48_apply, val_main_v51_apply]
  have e1 : ∀ k : Fin 256, lidx_main_v47 (ix2 n c) k = ix2 n k := fun k => funext fun a => by
    match a with | ⟨0, _⟩ => rfl | ⟨1, _⟩ => rfl
  have e2 : ∀ k : Fin 256, ridx_main_v47 (ix2 n c) k = ix2 k c := fun k => funext fun a => by
    match a with | ⟨0, _⟩ => rfl | ⟨1, _⟩ => rfl
  have e3 : ∀ k : Fin 256, idx_main_v45 (ix2 n k) = ix2 n 0 := fun k => funext fun a => by
    match a with | ⟨0, _⟩ => rfl | ⟨1, _⟩ => rfl
  have e4 : idx_main_v48 (idx_main_v49 (ix2 n c)) = ix1 c := funext fun a => by
    match a with | ⟨0, _⟩ => rfl
  have e5 : ∀ k : Fin 256, lidx_main_v51 (ix2 n c) k = ix2 n k := fun k => funext fun a => by
    match a with | ⟨0, _⟩ => rfl | ⟨1, _⟩ => rfl
  have e6 : ∀ k : Fin 256, ridx_main_v51 (ix2 n c) k = ix2 k c := fun k => funext fun a => by
    match a with | ⟨0, _⟩ => rfl | ⟨1, _⟩ => rfl
  rw [Ideal.addf_def, Ideal.addf_def, e4]
  refine Eq.trans ?_ (layer_of_entries _ _ (fun n => val_main_v15 (F := Ideal) x1 (ix2 n 0)) (val_main_v34 (F := Ideal) x0 x1 x2 x3 x4)
    (val_main_v44 (F := Ideal) x0 x1 x2 x3 x4) hagg x5 x7 x6 n c)
  refine congrArg₂ (· + ·) (congrArg (· + x6 (ix1 c)) (Finset.sum_congr rfl fun k _ => ?_))
    (Finset.sum_congr rfl fun k _ => ?_)
  · rw [val_main_v46_apply, val_main_v45_apply, Ideal.mulf_def, e1, e2, e3]
  · rw [e5, e6]

/-- The second hidden features: the maximum of the second layer with zero. -/
theorem relu2 (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal)) :
    cur2 (val_main_v53 (F := Ideal) x0 x1 x2 x3 x4 x5 x6 x7) = relu (cur2 (val_main_v52 (F := Ideal) x0 x1 x2 x3 x4 x5 x6 x7)) := by
  funext n c
  rw [cur2_apply, val_main_v53_apply, val_main_call2_v0_apply, val_main_call2_cst_apply, Ideal.maximumf_def, Ideal.ofBits_def,
    Ideal.ofBits_zero_f32]
  exact relu_of_entries (val_main_v52 (F := Ideal) x0 x1 x2 x3 x4 x5 x6 x7) n c

/-- The third layer: the specification's layer of the second hidden features. -/
theorem layer3 (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) :
    cur2 (val_main_v71 (F := Ideal) x0 x1 x2 x3 x4 x5 x6 x7 x8 x9 x10)
      = layerRef (landing (val_main_v24 (F := Ideal) x1)) (srcOf (by decide) (val_main_v21 (F := Ideal) x1))
          (fun n => val_main_v15 (F := Ideal) x1 (ix2 n 0)) (cur2 (val_main_v53 (F := Ideal) x0 x1 x2 x3 x4 x5 x6 x7)) (cur2 x8) (cur1 x9) (cur2 x10) := by
  have hS : scatter_S50000x128_S800000x1_S800000x128_1_0_0_1
      = LibRowScatterGather.segDims 50000 800000 128 Facts₀.scatter_S50000x128_S800000x1_S800000x128_1_0_0_1_wf := rfl
  have hG : gather_S50000x128_S800000x1_S800000x128_1_0_n_n_0_1_1128
      = LibRowScatterGather.rowDims 50000 128 800000 Facts₀.gather_S50000x128_S800000x1_S800000x128_1_0_n_n_0_1_1128_wf := rfl
  have hagg : cur2 (val_main_v63 (F := Ideal) x0 x1 x2 x3 x4 x5 x6 x7)
      = agg (landing (val_main_v24 (F := Ideal) x1)) (srcOf (by decide) (val_main_v21 (F := Ideal) x1)) (cur2 (val_main_v53 (F := Ideal) x0 x1 x2 x3 x4 x5 x6 x7)) := by
    unfold val_main_v63 val_main_v60
    rw [hS, hG]
    rw [show val_main_v62 (F := Ideal) x1 = val_main_v24 (F := Ideal) x1 from rfl,
      show val_main_v59 (F := Ideal) x1 = val_main_v21 (F := Ideal) x1 from rfl]
    exact segsum_gather (by decide) Facts₀.scatter_S50000x128_S800000x1_S800000x128_1_0_0_1_wf
      Facts₀.gather_S50000x128_S800000x1_S800000x128_1_0_n_n_0_1_1128_wf (val_main_v61 (F := Ideal))
      (fun j => by rw [val_main_v61_apply, val_main_cst_12_apply]; exact Ideal.ofBits_zero_f32)
      (val_main_v24 (F := Ideal) x1) (val_main_v21 (F := Ideal) x1) (val_main_v53 (F := Ideal) x0 x1 x2 x3 x4 x5 x6 x7)
  funext n c
  rw [cur2_apply, val_main_v71_apply, val_main_v69_apply, val_main_v66_apply, val_main_v68_apply,
    val_main_v67_apply, val_main_v70_apply]
  have e1 : ∀ k : Fin 128, lidx_main_v66 (ix2 n c) k = ix2 n k := fun k => funext fun a => by
    match a with | ⟨0, _⟩ => rfl | ⟨1, _⟩ => rfl
  have e2 : ∀ k : Fin 128, ridx_main_v66 (ix2 n c) k = ix2 k c := fun k => funext fun a => by
    match a with | ⟨0, _⟩ => rfl | ⟨1, _⟩ => rfl
  have e3 : ∀ k : Fin 128, idx_main_v64 (ix2 n k) = ix2 n 0 := fun k => funext fun a => by
    match a with | ⟨0, _⟩ => rfl | ⟨1, _⟩ => rfl
  have e4 : idx_main_v67 (idx_main_v68 (ix2 n c)) = ix1 c := funext fun a => by
    match a with | ⟨0, _⟩ => rfl
  have e5 : ∀ k : Fin 128, lidx_main_v70 (ix2 n c) k = ix2 n k := fun k => funext fun a => by
    match a with | ⟨0, _⟩ => rfl | ⟨1, _⟩ => rfl
  have e6 : ∀ k : Fin 128, ridx_main_v70 (ix2 n c) k = ix2 k c := fun k => funext fun a => by
    match a with | ⟨0, _⟩ => rfl | ⟨1, _⟩ => rfl
  rw [Ideal.addf_def, Ideal.addf_def, e4]
  refine Eq.trans ?_ (layer_of_entries _ _ (fun n => val_main_v15 (F := Ideal) x1 (ix2 n 0)) (val_main_v53 (F := Ideal) x0 x1 x2 x3 x4 x5 x6 x7)
    (val_main_v63 (F := Ideal) x0 x1 x2 x3 x4 x5 x6 x7) hagg x8 x10 x9 n c)
  refine congrArg₂ (· + ·) (congrArg (· + x9 (ix1 c)) (Finset.sum_congr rfl fun k _ => ?_))
    (Finset.sum_congr rfl fun k _ => ?_)
  · rw [val_main_v65_apply, val_main_v64_apply, Ideal.mulf_def, e1, e2, e3]
  · rw [e5, e6]

/-! ## The reference's result -/

theorem value (x0 : (⟨S50000x21, .f32⟩ : BufTy).Contents (Elt Ideal)) (x1 : (⟨S2x800000, .i32⟩ : BufTy).Contents (Elt Ideal))
    (x2 : (⟨S21x256, .f32⟩ : BufTy).Contents (Elt Ideal)) (x3 : (⟨S256, .f32⟩ : BufTy).Contents (Elt Ideal))
    (x4 : (⟨S21x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) :
    val_main_v71 (F := Ideal) x0 x1 x2 x3 x4 x5 x6 x7 x8 x9 x10
      = fun j => netRef (landing (val_main_v24 (F := Ideal) x1)) (srcOf (by decide) (val_main_v21 (F := Ideal) x1))
          (fun n => val_main_v15 (F := Ideal) x1 (ix2 n 0))
          (cur2 x0) (cur2 x2) (cur1 x3) (cur2 x4) (cur2 x5) (cur1 x6) (cur2 x7) (cur2 x8) (cur1 x9) (cur2 x10) (j 0) (j 1) := by
  funext j
  obtain ⟨p, q, rfl⟩ : ∃ (p : Fin 50000) (q : Fin 128), j = ix2 p q := ⟨j 0, j 1, eq_ix2 j⟩
  rw [← cur2_apply (val_main_v71 (F := Ideal) x0 x1 x2 x3 x4 x5 x6 x7 x8 x9 x10) p q, layer3, relu2, layer2, relu1, layer1]
  rfl

end Cert.SageRef

end
-- ==== Proof.SageRefInvdeg.lean ====
/-
  Every entry of the inverse-degree column is a real.

  The column is `where(deg > 0, 1 / max(deg, 1), 0)` broadcast to a column, with `deg` the in-degree: zero plus one
  for every edge landing on the node, a finite sum of ones and so a real.  Whichever branch the mask takes, the entry
  is a real: the quotient of one by a real that is at least one, or zero.
-/
import proofs.«138262_j68693706932385_2_alg».proof.Proof.RefReadP
import proofs.«138262_j68693706932385_2_alg».proof.Proof.SageSpec
import proofs.«138262_j68693706932385_2_alg».proof.Proof.SageArrays
import Idealize.ShloMosaic.Lib.IdealHost

noncomputable section

open Idealize.ShloMosaic Idealize.ShloMosaic.TcCoe Idealize.SL.Sem Idealize.ShloMosaic.ValueIdx

namespace Cert.SageRef
open Cert.ReferenceIdeal Cert.ReferenceIdeal.ReadP Cert.Sage

/-- A finite sum of ones is a real. -/
theorem sum_ones_real {ι : Type} (s : Finset ι) : ∃ r : ℝ, (∑ _e ∈ s, (1 : EReal)) = (r : EReal) := by
  classical
  induction s using Finset.induction_on with
  | empty => exact ⟨0, by simp⟩
  | insert a s ha ih =>
    obtain ⟨r, hr⟩ := ih
    refine ⟨1 + r, ?_⟩
    rw [Finset.sum_insert ha, hr, EReal.coe_add, EReal.coe_one]

/-- A scatter-add of ones into zeros, at an entry, is a real: zero plus one for every update landing there. -/
theorem scatter_ones_real {N E : ℕ} (wf : ScatterDims.WF ⟨1, ![N]⟩ ⟨2, ![E, 1]⟩ ⟨1, ![E]⟩ [] [0] [0] 1)
    (z : (⟨1, ![N]⟩ : Shape).Idx → EReal) (hz : ∀ j, z j = 0) (idx : IVec (⟨2, ![E, 1]⟩ : Shape) 32)
    (u : (⟨1, ![E]⟩ : Shape).Idx → EReal) (hu : ∀ j, u j = 1) (p : Fin N) :
    ∃ r : ℝ, Host.scatterAdd (F := Ideal) (φ := .f32) (LibRowScatterGather.vecDims N E wf) z idx u (ix1 p) = (r : EReal) := by
  show ∃ r : ℝ, Ideal.hostScatterAdd (LibRowScatterGather.vecDims N E wf) z idx u (ix1 p) = (r : EReal)
  rw [LibRowScatterGather.hostScatterAdd_vec_apply, hz, zero_add]
  simp only [hu]
  exact sum_ones_real _

/-- The in-degree of a node — zero plus one for every edge landing on it — is a real. -/
theorem deg_real (x1 : (⟨S2x800000, .i32⟩ : BufTy).Contents (Elt Ideal)) (p : Fin 50000) :
    ∃ r : ℝ, val_main_v7 (F := Ideal) x1 (ix1 p) = (r : EReal) := by
  unfold val_main_v7
  refine scatter_ones_real Facts₀.scatter_S50000_S800000x1_S800000_n_0_0_1_wf (val_main_v5 (F := Ideal)) (fun j => ?_)
    (val_main_v6 (F := Ideal) x1) (val_main_v4 (F := Ideal)) (fun j => ?_) p
  · rw [val_main_v5_apply, val_main_cst_0_apply]; exact Ideal.ofBits_zero_f32
  · rw [val_main_v4_apply, val_main_cst_apply]; exact Ideal.ofBits_one_f32

/-- `1 / max(deg, 1)`, or zero: a real in both branches of the mask. -/
theorem invdeg_vec_real (x1 : (⟨S2x800000, .i32⟩ : BufTy).Contents (Elt Ideal)) (p : Fin 50000) :
    ∃ r : ℝ, val_main_v14 (F := Ideal) x1 (ix1 p) = (r : EReal) := by
  rw [val_main_v14_apply]
  generalize val_main_v9 (F := Ideal) x1 (ix1 p) = b
  unfold Scalar.select
  split
  · obtain ⟨r, hr⟩ := deg_real x1 p
    rw [val_main_v13_apply, val_main_v12_apply, val_main_cst_3_apply, val_main_v11_apply, val_main_v10_apply,
      val_main_cst_2_apply, hr]
    simp only [Ideal.ofBits_def, Ideal.ofBits_one_f32, Ideal.hostDivf_def, Ideal.maximumf_def]
    have hmax : max (r : EReal) 1 = ((max r 1 : ℝ) : EReal) := by
      rw [← EReal.coe_one]; exact (EReal.coe_strictMono.monotone.map_max).symm
    have hne : max r 1 ≠ 0 := (lt_of_lt_of_le one_pos (le_max_right r 1)).ne'
    rw [hmax, Ideal.div_coe hne, one_mul]
    exact ⟨_, rfl⟩
  · rw [val_main_call0_v1_apply, val_main_call0_v0_apply, val_main_cst_4_apply]
    exact ⟨0, by simp only [Ideal.ofBits_def, Ideal.ofBits_zero_f32, EReal.coe_zero]⟩

theorem invdeg_real (x1 : (⟨S2x800000, .i32⟩ : BufTy).Contents (Elt Ideal)) (n : Fin 50000) :
    ∃ r : ℝ, val_main_v15 (F := Ideal) x1 (ix2 n 0) = (r : EReal) := by
  rw [val_main_v15_apply,
    show idx_main_v15 (ix2 n 0) = ix1 n from funext fun a => by match a with | ⟨0, _⟩ => rfl]
  exact invdeg_vec_real x1 n

end Cert.SageRef
end
-- ==== Proof.lean ====
/-
  Three layers of mean aggregation over a graph (21 → 256 → 128 → 128 features on 50000 nodes and 800000 edges):
  a kernel program against its reference, on the extended reals.

  Both programs compute, per layer,  h ↦ ((Σ over the edges landing on a node of the source's features) scaled by the
  node's inverse in-degree, times Wl, plus bl) plus h · Wr,  with a maximum with zero after the first two layers.
  The reference scales the aggregate and then multiplies.  The kernel program runs three kernel regions with host
  aggregations between them: regions 0 and 2 multiply the aggregate by Wl first and scale the product by the inverse
  degree afterwards; region 0 also multiplies its output by the second layer's Wl, so that the second aggregation runs
  over the projected features and region 1 only scales it, adds the bias and the root term.  Narrower float formats
  between the layers are the identity on the extended reals.

  The two arrangements are equal where every entry is a real, because then products distribute over the finite sums:
  the precondition makes every float input finite, the inverse degree is one over a positive real or zero, and reals
  are closed under the network's operations (SageLaw).  The kernel program's result is read off its run region by
  region (SageRegion0/1/2 for what each region leaves in its output array, SageKerHost / SageKerEntry for the host
  operations between them, SageKerValue for the composition); the reference's result is read stage by stage
  (SageRefValue).  Both are stated with the SAME edge structure and inverse-degree column — the reference's own
  stages of the edge list — since the kernel program's host lines that compute them are the reference's, line for
  line.  The three frames are the generated frame certificates and the reference's run; no rewrite was applied when
  the kernel was idealized, so that conjunct is trivial.
-/
import proofs.«138262_j68693706932385_2_alg».proof.Defs
import proofs.«138262_j68693706932385_2_alg».proof.Proof.Gen.Kernel
import proofs.«138262_j68693706932385_2_alg».proof.Proof.Gen.Kernel.Skeleton
import proofs.«138262_j68693706932385_2_alg».proof.Proof.Gen.Kernel.Launch
import proofs.«138262_j68693706932385_2_alg».proof.Proof.Gen.Kernel.Points
import proofs.«138262_j68693706932385_2_alg».proof.Proof.Gen.Kernel.Frame
import proofs.«138262_j68693706932385_2_alg».proof.Proof.Gen.KernelIdeal
import proofs.«138262_j68693706932385_2_alg».proof.Proof.Gen.KernelIdeal.Skeleton
import proofs.«138262_j68693706932385_2_alg».proof.Proof.Gen.KernelIdeal.Launch
import proofs.«138262_j68693706932385_2_alg».proof.Proof.Gen.KernelIdeal.Points
import proofs.«138262_j68693706932385_2_alg».proof.Proof.Gen.KernelIdeal.Frame
import proofs.«138262_j68693706932385_2_alg».proof.Proof.Gen.ReferenceIdeal
import proofs.«138262_j68693706932385_2_alg».proof.Proof.Gen.Pre_finite_inputs
import proofs.«138262_j68693706932385_2_alg».proof.Proof.RefRunP
import proofs.«138262_j68693706932385_2_alg».proof.Proof.RefReadP
import proofs.«138262_j68693706932385_2_alg».proof.Proof.SageLaw
import proofs.«138262_j68693706932385_2_alg».proof.Proof.SageFinite
import proofs.«138262_j68693706932385_2_alg».proof.Proof.SageKerRun
import proofs.«138262_j68693706932385_2_alg».proof.Proof.SageKerValue
import proofs.«138262_j68693706932385_2_alg».proof.Proof.SageRefValue
import proofs.«138262_j68693706932385_2_alg».proof.Proof.SageRefInvdeg
import Idealize.ShloMosaic.Adequacy
import Idealize.ShloMosaic.Init

noncomputable section

namespace Cert.Proof

open Idealize.ShloMosaic Idealize.ShloMosaic.TcCoe Idealize.SL.Sem Idealize.ShloMosaic.ValueIdx Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The result both programs end with: the reference network of the kernel program's launch arguments. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v53) :=
  fun j => netRef (Cert.SageKer.Lof (m ((c.tc : Thread Cert.KernelIdeal.nD Cert.KernelIdeal.τ).loc Cert.KernelIdeal.main_arg1))) (Cert.SageKer.sof (m ((c.tc : Thread Cert.KernelIdeal.nD Cert.KernelIdeal.τ).loc Cert.KernelIdeal.main_arg1))) (Cert.SageKer.dof (m ((c.tc : Thread Cert.KernelIdeal.nD Cert.KernelIdeal.τ).loc Cert.KernelIdeal.main_arg1))) (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4)))
        (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6))) (cur2 (m ((c.tc : Thread Cert.KernelIdeal.nD Cert.KernelIdeal.τ).loc Cert.KernelIdeal.main_arg7))) (cur2 (m ((c.tc : Thread Cert.KernelIdeal.nD Cert.KernelIdeal.τ).loc Cert.KernelIdeal.main_arg8))) (cur1 (m ((c.tc : Thread Cert.KernelIdeal.nD Cert.KernelIdeal.τ).loc Cert.KernelIdeal.main_arg9))) (cur2 (m ((c.tc : Thread Cert.KernelIdeal.nD Cert.KernelIdeal.τ).loc Cert.KernelIdeal.main_arg10))) (j 0) (j 1)

/-- Under the precondition the kernel program's result buffer ends at `result`: its own arrangement of the network,
    which on real entries is the reference's. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W8 m ρ c (Proc.devRef .tc Cert.KernelIdeal.main_v53) = result m c := by
  obtain ⟨h0, h2, h3, h4, h5, h6, h7, h8, -, -⟩ := Cert.SageFin.inputs_real m hpre c
  funext j
  obtain ⟨n, q, rfl⟩ : ∃ (n : Fin 50000) (q : Fin 128), j = ix2 n q := ⟨j 0, j 1, eq_ix2 j⟩
  rw [Cert.SageKer.kernel_value m ρ c n q]
  show _ = netRef _ _ _ _ _ _ _ _ _ _ _ _ _ n q
  exact congrFun (congrFun (netKer_eq_netRef (Cert.SageKer.Lof (m ((c.tc : Thread Cert.KernelIdeal.nD Cert.KernelIdeal.τ).loc Cert.KernelIdeal.main_arg1))) (Cert.SageKer.sof (m ((c.tc : Thread Cert.KernelIdeal.nD Cert.KernelIdeal.τ).loc Cert.KernelIdeal.main_arg1))) (Cert.SageKer.dof (m ((c.tc : Thread Cert.KernelIdeal.nD Cert.KernelIdeal.τ).loc Cert.KernelIdeal.main_arg1)))
    (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6))) (cur2 (m ((c.tc : Thread Cert.KernelIdeal.nD Cert.KernelIdeal.τ).loc Cert.KernelIdeal.main_arg7)))
    (cur2 (m ((c.tc : Thread Cert.KernelIdeal.nD Cert.KernelIdeal.τ).loc Cert.KernelIdeal.main_arg8))) (cur1 (m ((c.tc : Thread Cert.KernelIdeal.nD Cert.KernelIdeal.τ).loc Cert.KernelIdeal.main_arg9))) (cur2 (m ((c.tc : Thread Cert.KernelIdeal.nD Cert.KernelIdeal.τ).loc Cert.KernelIdeal.main_arg10)))
    (fun n => Cert.SageRef.invdeg_real _ n)
    (fun n k => h0 (ix2 n k)) (fun k q => h2 (ix2 k q)) (fun q => h3 (ix1 q)) (fun k q => h4 (ix2 k q))
    (fun k q => h5 (ix2 k q)) (fun q => h6 (ix1 q)) (fun k q => h7 (ix2 k q)) (fun k q => h8 (ix2 k q))) n) q

theorem algebraic : Cert.algebraic_KernelIdeal_ReferenceIdeal := by
  intro m ρ m' ρ' hpre hagree
  refine ⟨fun c => result m c, ?_, ?_⟩
  · exact (θ_run Cert.KernelIdeal.defs _ _).mono (fun r h c => ⟨(h c).1.trans (kernel_result m ρ hpre c), (h c).2⟩)
      (Cert.SageKer.run_named (F := Ideal) m ρ)
  · refine (θ_run Cert.ReferenceIdeal.defs _ _).mono (fun _ h c => ⟨?_, (h c).2⟩)
      (Cert.ReferenceIdeal.ValueP.run (F := Ideal) m' ρ')
    obtain ⟨e0, e1, e2, e3, e4, e5, e6, e7, e8, e9, e10⟩ := hagree c
    rw [(h c).1, Cert.ReferenceIdeal.ReadP.val_main_v71_eq, Cert.SageRef.value, e0, e1, e2, e3, e4, e5, e6, e7, e8, e9, e10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
